-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x1024x64 : Shape := ⟨4, ![4, 12, 1024, 64]⟩
abbrev S4x12x1024x1024 : Shape := ⟨4, ![4, 12, 1024, 1024]⟩
abbrev S_ : Shape := ⟨0, ![]⟩

class Facts : Prop where
  bcast_S_S4x12x1024x64 : S_.BroadcastsInDim S4x12x1024x64 (![] : Fin 0 → Fin S4x12x1024x64.rank)
  reducesTo_S4x12x1024x64_S_d0_1_2_3 : S4x12x1024x64.ReducesTo [0, 1, 2, 3] S_
  h_S_ : 0 < S_.numel
  bcast_S_S4x12x1024x1024 : S_.BroadcastsInDim S4x12x1024x1024 (![] : Fin 0 → Fin S4x12x1024x1024.rank)
  reducesTo_S4x12x1024x1024_S_d0_1_2_3 : S4x12x1024x1024.ReducesTo [0, 1, 2, 3] S_

variable [Facts]

def fn_part1 {F : FTy → Type} [FloatOps F] (main_v13 : IVec S_ 1) (main_v16 : IVec S4x12x1024x1024 1) : IVec S_ 1 :=
  let main_c_5 : IVec S_ 1 := constantI S_ 1 1#1
  let main_v17 : IVec S_ 1 := (fun x v => Host.reduce IntOp.andi x v reducesTo_S4x12x1024x1024_S_d0_1_2_3 h_S_) main_v16 main_c_5
  let main_v18 : IVec S_ 1 := andi main_v13 main_v17
  main_v18

def fn {F : FTy → Type} [FloatOps F] (main_arg0 : FVec F S4x12x1024x64 .f32) (main_arg1 : FVec F S4x12x1024x64 .f32) (main_arg2 : FVec F S4x12x1024x64 .f32) (main_arg3 : IVec S4x12x1024x1024 1) (main_arg4 : FVec F S4x12x1024x1024 .f32) : IVec S_ 1 :=
  let main_v0 : FVec F S4x12x1024x64 .f32 := Host.absf main_arg0
  let main_cst : FVec F S_ .f32 := constant S_ .f32 0x7F800000#32
  let main_v1 : FVec F S4x12x1024x64 .f32 := broadcastInDim S4x12x1024x64 ![] bcast_S_S4x12x1024x64 main_cst
  let main_v2 : IVec S4x12x1024x64 1 := cmpf .olt main_v0 main_v1
  let main_c : IVec S_ 1 := constantI S_ 1 1#1
  let main_v3 : IVec S_ 1 := (fun x v => Host.reduce IntOp.andi x v reducesTo_S4x12x1024x64_S_d0_1_2_3 h_S_) main_v2 main_c
  let main_v4 : FVec F S4x12x1024x64 .f32 := Host.absf main_arg1
  let main_cst_0 : FVec F S_ .f32 := constant S_ .f32 0x7F800000#32
  let main_v5 : FVec F S4x12x1024x64 .f32 := broadcastInDim S4x12x1024x64 ![] bcast_S_S4x12x1024x64 main_cst_0
  let main_v6 : IVec S4x12x1024x64 1 := cmpf .olt main_v4 main_v5
  let main_c_1 : IVec S_ 1 := constantI S_ 1 1#1
  let main_v7 : IVec S_ 1 := (fun x v => Host.reduce IntOp.andi x v reducesTo_S4x12x1024x64_S_d0_1_2_3 h_S_) main_v6 main_c_1
  let main_v8 : IVec S_ 1 := andi main_v3 main_v7
  let main_v9 : FVec F S4x12x1024x64 .f32 := Host.absf main_arg2
  let main_cst_2 : FVec F S_ .f32 := constant S_ .f32 0x7F800000#32
  let main_v10 : FVec F S4x12x1024x64 .f32 := broadcastInDim S4x12x1024x64 ![] bcast_S_S4x12x1024x64 main_cst_2
  let main_v11 : IVec S4x12x1024x64 1 := cmpf .olt main_v9 main_v10
  let main_c_3 : IVec S_ 1 := constantI S_ 1 1#1
  let main_v12 : IVec S_ 1 := (fun x v => Host.reduce IntOp.andi x v reducesTo_S4x12x1024x64_S_d0_1_2_3 h_S_) main_v11 main_c_3
  let main_v13 : IVec S_ 1 := andi main_v8 main_v12
  let main_v14 : FVec F S4x12x1024x1024 .f32 := Host.absf main_arg4
  let main_cst_4 : FVec F S_ .f32 := constant S_ .f32 0x7F800000#32
  let main_v15 : FVec F S4x12x1024x1024 .f32 := broadcastInDim S4x12x1024x1024 ![] bcast_S_S4x12x1024x1024 main_cst_4
  let main_v16 : IVec S4x12x1024x1024 1 := cmpf .olt main_v14 main_v15
  fn_part1 (F := F) main_v13 main_v16
-- ==== Kernel.lean ====
abbrev S4x12x1024x64 : Shape := ⟨4, ![4, 12, 1024, 64]⟩
abbrev S4x12x1024x1024 : Shape := ⟨4, ![4, 12, 1024, 1024]⟩
abbrev S48x1024x64 : Shape := ⟨3, ![48, 1024, 64]⟩
abbrev S48x1024x1024 : Shape := ⟨3, ![48, 1024, 1024]⟩
abbrev S1x512x64 : Shape := ⟨3, ![1, 512, 64]⟩
abbrev S1x1024x64 : Shape := ⟨3, ![1, 1024, 64]⟩
abbrev S1x512x1024 : Shape := ⟨3, ![1, 512, 1024]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S4x12x1024x64, .f32⟩
  | .hbm, ⟨1, _⟩ => ⟨S4x12x1024x64, .f32⟩
  | .hbm, ⟨2, _⟩ => ⟨S4x12x1024x64, .f32⟩
  | .hbm, ⟨3, _⟩ => ⟨S4x12x1024x1024, .i1⟩
  | .hbm, ⟨4, _⟩ => ⟨S4x12x1024x1024, .f32⟩
  | .hbm, ⟨5, _⟩ => ⟨S48x1024x64, .f32⟩
  | .hbm, ⟨6, _⟩ => ⟨S48x1024x64, .f32⟩
  | .hbm, ⟨7, _⟩ => ⟨S48x1024x64, .f32⟩
  | .hbm, ⟨8, _⟩ => ⟨S48x1024x1024, .i1⟩
  | .hbm, ⟨9, _⟩ => ⟨S48x1024x1024, .f32⟩
  | .hbm, ⟨10, _⟩ => ⟨S48x1024x1024, .i32⟩
  | .hbm, ⟨11, _⟩ => ⟨S48x1024x64, .f32⟩
  | .hbm, ⟨12, _⟩ => ⟨S48x1024x1024, .f32⟩
  | .hbm, ⟨13, _⟩ => ⟨S4x12x1024x64, .f32⟩
  | .hbm, ⟨14, _⟩ => ⟨S4x12x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x1024, .i32⟩
  | .local _ .vmem, ⟨7, _⟩ => ⟨S1x512x1024, .i32⟩
  | .local _ .vmem, ⟨8, _⟩ => ⟨S1x512x1024, .f32⟩
  | .local _ .vmem, ⟨9, _⟩ => ⟨S1x512x1024, .f32⟩
  | .local _ .vmem, ⟨10, _⟩ => ⟨S1x512x64, .f32⟩
  | .local _ .vmem, ⟨11, _⟩ => ⟨S1x512x64, .f32⟩
  | .local _ .vmem, ⟨12, _⟩ => ⟨S1x512x1024, .f32⟩
  | .local _ .vmem, ⟨13, _⟩ => ⟨S1x512x1024, .f32⟩
  | _, _ => ⟨S4x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![48, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x12x1024x64_S48x1024x64 : S4x12x1024x64.ShapeCasts S48x1024x64
  shapeCasts_S4x12x1024x1024_S48x1024x1024 : S4x12x1024x1024.ShapeCasts S48x1024x1024
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  shapeCasts_S512x64_S1x512x64 : S512x64.ShapeCasts S1x512x64
  shapeCasts_S48x1024x64_S4x12x1024x64 : S48x1024x64.ShapeCasts S4x12x1024x64
  shapeCasts_S48x1024x1024_S4x12x1024x1024 : S48x1024x1024.ShapeCasts S4x12x1024x1024
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S48x1024x64.size a
  hwx0_0 : ∀ i : grid0.Coords, EltTy.bits .f32 = 32 ∨ (Rect.block (s := S48x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S48x1024x64.size a
  hwx0_1 : ∀ i : grid0.Coords, EltTy.bits .f32 = 32 ∨ (Rect.block (s := S48x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S48x1024x64.size a
  hwx0_2 : ∀ i : grid0.Coords, EltTy.bits .f32 = 32 ∨ (Rect.block (s := S48x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S48x1024x1024.size a
  hwx0_3 : ∀ i : grid0.Coords, EltTy.bits .i32 = 32 ∨ (Rect.block (s := S48x1024x1024) S1x512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S48x1024x1024.size a
  hwx0_4 : ∀ i : grid0.Coords, EltTy.bits .f32 = 32 ∨ (Rect.block (s := S48x1024x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S48x1024x64.size a
  hwx0_5 : ∀ i : grid0.Coords, EltTy.bits .f32 = 32 ∨ (Rect.block (s := S48x1024x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S48x1024x1024.size a
  hwx0_6 : ∀ i : grid0.Coords, EltTy.bits .f32 = 32 ∨ (Rect.block (s := S48x1024x1024) S1x512x1024.size (cc0_transform_6 i) (hinb0_6 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x12x1024x64 : Shape := ⟨4, ![4, 12, 1024, 64]⟩
abbrev S4x12x1024x1024 : Shape := ⟨4, ![4, 12, 1024, 1024]⟩
abbrev S_ : Shape := ⟨0, ![]⟩
abbrev S4x12x1024 : Shape := ⟨3, ![4, 12, 1024]⟩
abbrev S4x12x1024x1 : Shape := ⟨4, ![4, 12, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x12x1024x64, .f32⟩
  | .hbm, ⟨1, _⟩ => ⟨S4x12x1024x64, .f32⟩
  | .hbm, ⟨2, _⟩ => ⟨S4x12x1024x64, .f32⟩
  | .hbm, ⟨3, _⟩ => ⟨S4x12x1024x1024, .i1⟩
  | .hbm, ⟨4, _⟩ => ⟨S4x12x1024x1024, .f32⟩
  | .hbm, ⟨5, _⟩ => ⟨S4x12x1024x1024, .f32⟩
  | .hbm, ⟨6, _⟩ => ⟨S_, .f32⟩
  | .hbm, ⟨7, _⟩ => ⟨S_, .f32⟩
  | .hbm, ⟨8, _⟩ => ⟨S4x12x1024x1024, .f32⟩
  | .hbm, ⟨9, _⟩ => ⟨S4x12x1024x1024, .f32⟩
  | .hbm, ⟨10, _⟩ => ⟨S_, .f32⟩
  | .hbm, ⟨11, _⟩ => ⟨S4x12x1024x1024, .f32⟩
  | .hbm, ⟨12, _⟩ => ⟨S4x12x1024x1024, .f32⟩
  | .hbm, ⟨13, _⟩ => ⟨S_, .f32⟩
  | .hbm, ⟨14, _⟩ => ⟨S4x12x1024x1024, .f32⟩
  | .hbm, ⟨15, _⟩ => ⟨S4x12x1024x1024, .i1⟩
  | .hbm, ⟨16, _⟩ => ⟨S4x12x1024x1024, .f32⟩
  | .hbm, ⟨17, _⟩ => ⟨S_, .f32⟩
  | .hbm, ⟨18, _⟩ => ⟨S4x12x1024x1024, .f32⟩
  | .hbm, ⟨19, _⟩ => ⟨S4x12x1024x1024, .f32⟩
  | .hbm, ⟨20, _⟩ => ⟨S_, .f32⟩
  | .hbm, ⟨21, _⟩ => ⟨S4x12x1024x1024, .f32⟩
  | .hbm, ⟨22, _⟩ => ⟨S4x12x1024x1024, .f32⟩
  | .hbm, ⟨23, _⟩ => ⟨S_, .f32⟩
  | .hbm, ⟨24, _⟩ => ⟨S4x12x1024x1024, .f32⟩
  | .hbm, ⟨25, _⟩ => ⟨S4x12x1024x1024, .f32⟩
  | .hbm, ⟨26, _⟩ => ⟨S4x12x1024x1024, .f32⟩
  | .hbm, ⟨27, _⟩ => ⟨S4x12x1024x1024, .f32⟩
  | .hbm, ⟨28, _⟩ => ⟨S4x12x1024x1024, .f32⟩
  | .hbm, ⟨29, _⟩ => ⟨S4x12x1024x1024, .f32⟩
  | .hbm, ⟨30, _⟩ => ⟨S_, .f32⟩
  | .hbm, ⟨31, _⟩ => ⟨S4x12x1024, .f32⟩
  | .hbm, ⟨32, _⟩ => ⟨S_, .f32⟩
  | .hbm, ⟨33, _⟩ => ⟨S4x12x1024, .f32⟩
  | .hbm, ⟨34, _⟩ => ⟨S4x12x1024, .f32⟩
  | .hbm, ⟨35, _⟩ => ⟨S4x12x1024x1, .f32⟩
  | .hbm, ⟨36, _⟩ => ⟨S4x12x1024x1024, .f32⟩
  | .hbm, ⟨37, _⟩ => ⟨S4x12x1024x1024, .f32⟩
  | .hbm, ⟨38, _⟩ => ⟨S4x12x1024x1024, .f32⟩
  | .hbm, ⟨39, _⟩ => ⟨S_, .f32⟩
  | .hbm, ⟨40, _⟩ => ⟨S4x12x1024, .f32⟩
  | .hbm, ⟨41, _⟩ => ⟨S4x12x1024x1, .f32⟩
  | .hbm, ⟨42, _⟩ => ⟨S4x12x1024x1024, .f32⟩
  | .hbm, ⟨43, _⟩ => ⟨S4x12x1024x1024, .f32⟩
  | .hbm, ⟨44, _⟩ => ⟨S4x12x1024x64, .f32⟩
  | _, _ => ⟨S4x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S4x12x1024x1024 : S_.BroadcastsInDim S4x12x1024x1024 (![] : Fin 0 → Fin S4x12x1024x1024.rank)
  reducesTo_S4x12x1024x1024_S4x12x1024_d3 : S4x12x1024x1024.ReducesTo [3] S4x12x1024
  h_S_ : 0 < S_.numel
  bcast_S_S4x12x1024 : S_.BroadcastsInDim S4x12x1024 (![] : Fin 0 → Fin S4x12x1024.rank)
  bcast_S4x12x1024_S4x12x1024x1_0_1_2 : S4x12x1024.BroadcastsInDim S4x12x1024x1 (![0, 1, 2] : Fin 3 → Fin S4x12x1024x1.rank)
  bcast_S4x12x1024x1_S4x12x1024x1024_0_1_2_3 : S4x12x1024x1.BroadcastsInDim S4x12x1024x1024 (![0, 1, 2, 3] : Fin 4 → Fin S4x12x1024x1024.rank)
  dot_S4x12x1024x64_S4x12x1024x64_S4x12x1024x1024_3_3_2_2_01_01_wf : DotDims.WF S4x12x1024x64 S4x12x1024x64 S4x12x1024x1024 [3] [3] [2] [2] [0, 1] [0, 1]
  dot_S4x12x1024x1024_S4x12x1024x64_S4x12x1024x64_3_2_2_3_01_01_wf : DotDims.WF S4x12x1024x1024 S4x12x1024x64 S4x12x1024x64 [3] [2] [2] [3] [0, 1] [0, 1]

variable [Facts₀]

def dot_S4x12x1024x64_S4x12x1024x64_S4x12x1024x1024_3_3_2_2_01_01 : DotDims S4x12x1024x64 S4x12x1024x64 S4x12x1024x1024 where
  lhsContracting := [3]
  rhsContracting := [3]
  lhsNonContracting := [2]
  rhsNonContracting := [2]
  lhsBatch := [0, 1]
  rhsBatch := [0, 1]
  wf := dot_S4x12x1024x64_S4x12x1024x64_S4x12x1024x1024_3_3_2_2_01_01_wf
def dot_S4x12x1024x1024_S4x12x1024x64_S4x12x1024x64_3_2_2_3_01_01 : DotDims S4x12x1024x1024 S4x12x1024x64 S4x12x1024x64 where
  lhsContracting := [3]
  rhsContracting := [2]
  lhsNonContracting := [2]
  rhsNonContracting := [3]
  lhsBatch := [0, 1]
  rhsBatch := [0, 1]
  wf := dot_S4x12x1024x1024_S4x12x1024x64_S4x12x1024x64_3_2_2_3_01_01_wf

class Facts : Prop extends Facts₀ where

variable [Facts]
-- ==== Proof.RowSoftmax.lean ====
/-
  One row of attention, as a function of the row's scores: the shape both programs compute.

  A row `s : Fin 1024 → EReal` of scores is turned into weights by the softmax written with the usual shift:
  first the row's maximum `M` — the fold of `max` over the row started at the pattern of −∞, and once more
  `max` against that pattern —, then `exp (s k − M)` divided by the sum over the row of `exp (s k' − M)`.
  Both programs spell exactly this; the pattern of −∞ is never evaluated, it is the same word on both sides.
-/
import Idealize.ShloMosaic.PureOps.Ideal

noncomputable section

namespace Cert.Attention

open Idealize.ShloMosaic

/-- The pattern of −∞ read as an extended real (kept as the word: both programs use the same one). -/
abbrev negInfWord : EReal := Ideal.ofBits .f32 0xFF800000#32

/-- The shift of a row: its maximum, folded from the pattern of −∞ and taken once more against it. -/
def rowShift {n : ℕ} (s : Fin n → EReal) : EReal :=
  max negInfWord ((Finset.univ : Finset (Fin n)).fold max negInfWord s)

/-- The softmax weight of entry `k` of the row `s`. -/
def rowWeight {n : ℕ} (s : Fin n → EReal) (k : Fin n) : EReal :=
  Ideal.div (Ideal.exp (s k - rowShift s)) (∑ k' : Fin n, Ideal.exp (s k' - rowShift s))

end Cert.Attention

end
-- ==== Proof.ScoreLaws.lean ====
import Idealize.ShloMosaic.PureOps.Ideal
import Idealize.ShloMosaic.PureOps.Ideal.Laws

noncomputable section

namespace Cert.ScoreLaws

open Idealize.ShloMosaic

/-! ### The constants' bit patterns, as the extended reals they denote -/

/-- `0x3E000000`: sign 0, exponent 124, fraction 0, that is `2^(124 - 127) = 1/8`. -/
theorem ofBits_eighth : Ideal.ofBits .f32 0x3E000000#32 = ((1 / 8 : ℝ) : EReal) := by
  simp [Ideal.ofBits, Ideal.ieee, -EReal.coe_mul]; norm_num

/-- `0x42800000`: sign 0, exponent 133, fraction 0, that is `2^(133 - 127) = 64`. -/
theorem ofBits_sixtyfour : Ideal.ofBits .f32 0x42800000#32 = ((64 : ℝ) : EReal) := by
  simp [Ideal.ofBits, Ideal.ieee, -EReal.coe_mul]; norm_num

/-- `0x3F000000`: sign 0, exponent 126, fraction 0, that is `2^(126 - 127) = 1/2`. -/
theorem ofBits_half : Ideal.ofBits .f32 0x3F000000#32 = ((1 / 2 : ℝ) : EReal) := by
  simp [Ideal.ofBits, Ideal.ieee, -EReal.coe_mul]; norm_num

/-- `0x3F800000`: sign 0, exponent 127, fraction 0, that is `2^0 = 1`. -/
theorem ofBits_one : Ideal.ofBits .f32 0x3F800000#32 = ((1 : ℝ) : EReal) := by
  simp [Ideal.ofBits, Ideal.ieee, -EReal.coe_mul]; norm_num

/-- `0xCE6E6B28` (the pattern of `-1.0e9`): its exponent field is `156`, not all ones, so the
    pattern denotes a real number (neither infinity nor junk). -/
theorem ofBits_fill_real : ∃ r : ℝ, Ideal.ofBits .f32 0xCE6E6B28#32 = (r : EReal) := by
  simp [Ideal.ofBits, Ideal.ieee, -EReal.coe_mul]
  exact ⟨_, (EReal.coe_neg _).symm⟩

/-- `√64 = 8`, since `64 = 8^2` and `8 ≥ 0`. -/
theorem sqrt_sixtyfour : Ideal.sqrt ((64 : ℝ) : EReal) = ((8 : ℝ) : EReal) := by
  have h : Real.sqrt 64 = 8 := by
    rw [show (64 : ℝ) = 8 ^ 2 by norm_num]
    exact Real.sqrt_sq (by norm_num)
  rw [Ideal.sqrt_coe, if_neg (by norm_num), h]

/-! ### Finite sums of reals inside the extended reals -/

/-- The coercion `ℝ → EReal` commutes with finite sums (induction on the index set, one
    `EReal.coe_add` per step). -/
theorem coe_sum_real {ι : Type*} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- a finite sum of products of reals, computed in the extended reals, is the real sum -/
theorem sum_mul_real {n : ℕ} (a b : Fin n → ℝ) :
    ∑ k : Fin n, (a k : EReal) * (b k : EReal) = ((∑ k : Fin n, a k * b k : ℝ) : EReal) := by
  simp only [← EReal.coe_mul]
  exact coe_sum_real Finset.univ (fun k => a k * b k)

/-- the kernel scales the left factor by the pattern of `1/8` before contracting: every term is
    the real `a k * (1/8) * b k`, and the factor `1/8` comes out of the real sum. -/
theorem scaled_sum_real {n : ℕ} (a b : Fin n → ℝ) :
    ∑ k : Fin n, ((a k : EReal) * Ideal.ofBits .f32 0x3E000000#32) * (b k : EReal)
      = (((∑ k : Fin n, a k * b k) / 8 : ℝ) : EReal) := by
  rw [ofBits_eighth]
  simp only [← EReal.coe_mul]
  rw [coe_sum_real Finset.univ (fun k => a k * (1 / 8) * b k), Finset.sum_div]
  congr 1
  exact Finset.sum_congr rfl (fun k _ => by ring)

/-- the reference divides the contraction by the square root of the pattern of `64`: the divisor
    is the nonzero real `8`, so the quotient is the real sum times `1/8`. -/
theorem sum_div_sqrt_real {n : ℕ} (a b : Fin n → ℝ) :
    Ideal.div (∑ k : Fin n, (a k : EReal) * (b k : EReal)) (Ideal.sqrt (Ideal.ofBits .f32 0x42800000#32))
      = (((∑ k : Fin n, a k * b k) / 8 : ℝ) : EReal) := by
  rw [ofBits_sixtyfour, sqrt_sixtyfour, Ideal.div_coe (by norm_num : (8 : ℝ) ≠ 0), sum_mul_real,
    ← EReal.coe_mul]
  congr 1
  ring

/-! ### The blend -/

/-- the blend of a score `s` with a help score `h` under a validity bit `c` (`v = 0` or `1`): the
    kernel's `s + (½·v)·(h − s)` is the reference's `h·(v·½) + s·(v·½ + (1 − v))`. Every factor is
    a real, so both sides are one real expression each, and the two agree for `v = 0` (both are
    `s`) and for `v = 1` (both are `(s + h)/2`). -/
theorem blend_eq (s h : ℝ) (c : BitVec 1) :
    (s : EReal) + (Ideal.ofBits .f32 0x3F000000#32 * ((c.toNat : ℝ) : EReal)) * ((h : EReal) - (s : EReal))
      = (h : EReal) * (((c.toNat : ℝ) : EReal) * Ideal.ofBits .f32 0x3F000000#32)
        + (s : EReal) * ((((c.toNat : ℝ) : EReal) * Ideal.ofBits .f32 0x3F000000#32)
            + (Ideal.ofBits .f32 0x3F800000#32 - ((c.toNat : ℝ) : EReal))) := by
  rw [ofBits_half, ofBits_one]
  simp only [← EReal.coe_sub, ← EReal.coe_mul, ← EReal.coe_add]
  congr 1
  have hc : c.toNat = 0 ∨ c.toNat = 1 := by
    have := c.isLt
    omega
  rcases hc with hc | hc <;> rw [hc] <;> push_cast <;> ring

end Cert.ScoreLaws

end
-- ==== Proof.EntryScore.lean ====
/-
  The blended score of ONE attention entry, as each program computes it from the query row `a`, the key row
  `b` (64 features each), the entry's mask and its help score `h`, and the law that joins the two on finite data.

  The kernel scales every product by `1/8` before summing, selects the fill value where the mask word is
  nonzero, and blends `s + (½·v)·(h − s)`; the reference sums first, divides by `√64`, selects on the mask bit,
  and blends `h·(v·½) + s·(v·½ + (1 − v))`, where `v` is the validity bit of `h` read as a number.
-/
import Idealize.ShloMosaic.PureOps.Ideal
import Idealize.ShloMosaic.PureOps.Ideal.Laws
import Idealize.ShloMosaic.Lib.KernelVsHost
import Idealize.ShloMosaic.Lib.ValueIdx
import proofs.«175533_j44976897524605_2_alg».proof.Proof.ScoreLaws

noncomputable section

namespace Cert.EntryScore

open Idealize.ShloMosaic

/-- the kernel's: the mask arrives as a 32-bit word `w` -/
def entryScore (a b : Fin 64 → EReal) (w : BitVec 32) (h : EReal) : EReal :=
  Scalar.select (IntOp.cmpi .ne w 0#32) (Ideal.ofBits .f32 0xCE6E6B28#32) (∑ d : Fin 64, a d * Ideal.ofBits .f32 0x3E000000#32 * b d)
    + Ideal.ofBits .f32 0x3F000000#32 * ((((Ideal.cmp .ogt h (Ideal.ofBits .f32 0xCCBEBC20#32)).setWidth 32).toInt : ℝ) : EReal)
      * (h - Scalar.select (IntOp.cmpi .ne w 0#32) (Ideal.ofBits .f32 0xCE6E6B28#32) (∑ d : Fin 64, a d * Ideal.ofBits .f32 0x3E000000#32 * b d))

/-- the reference's: the mask is the bit `mb` -/
def refEntry (a b : Fin 64 → EReal) (mb : BitVec 1) (h : EReal) : EReal :=
  let v : EReal := (((Ideal.cmp .ogt h (Ideal.ofBits .f32 0xCCBEBC20#32)).toNat : ℝ) : EReal)
  h * (v * Ideal.ofBits .f32 0x3F000000#32)
    + Scalar.select mb (Ideal.ofBits .f32 0xCE6E6B28#32)
        (Ideal.div (∑ d : Fin 64, a d * b d) (Ideal.sqrt (Ideal.ofBits .f32 0x42800000#32)))
      * (v * Ideal.ofBits .f32 0x3F000000#32 + (Ideal.ofBits .f32 0x3F800000#32 - v))

/-- A bit widened to 32 bits is nonzero exactly when it is set: comparing the widened word against zero
    gives the bit back. -/
theorem cmpi_ne_setWidth : ∀ mb : BitVec 1, IntOp.cmpi .ne (mb.setWidth 32) 0#32 = mb := by decide

/-- A bit widened to 32 bits and read as a signed integer, then as a real, is the bit (`0` or `1`) as a real. -/
theorem toInt_setWidth_real (c : BitVec 1) : (((c.setWidth 32).toInt : ℤ) : ℝ) = ((c.toNat : ℕ) : ℝ) := by
  rw [toInt_setWidth_bit]
  exact Int.cast_natCast _

/-- On finite data the two blended scores of one entry agree. With the rows real, the contraction is a real
    sum, so the kernel's factor `1/8` inside each product and the reference's division of the sum by `√64 = 8`
    give the same real `s`; a masked entry is the fill value on both sides, also a real. With the help score
    `h` real too, the kernel's `s + (½·v)·(h − s)` and the reference's `h·(v·½) + s·(v·½ + (1 − v))` are the
    same real for `v = 0` and for `v = 1`. (At an infinity neither step holds: the extended reals do not
    distribute.) -/
theorem entry_join (a b : Fin 64 → EReal) (ha : ∀ d, ∃ r : ℝ, a d = (r : EReal)) (hb : ∀ d, ∃ r : ℝ, b d = (r : EReal))
    (mb : BitVec 1) (h : EReal) (hh : ∃ r : ℝ, h = (r : EReal)) :
    entryScore a b (mb.setWidth 32) h = refEntry a b mb h := by
  choose af haf using ha
  choose bf hbf using hb
  obtain ⟨hr, rfl⟩ := hh
  obtain rfl : a = fun d => (af d : EReal) := funext haf
  obtain rfl : b = fun d => (bf d : EReal) := funext hbf
  obtain ⟨fr, hfr⟩ := ScoreLaws.ofBits_fill_real
  unfold entryScore refEntry
  dsimp only
  rw [cmpi_ne_setWidth, toInt_setWidth_real]
  generalize Ideal.cmp .ogt (hr : EReal) (Ideal.ofBits .f32 0xCCBEBC20#32) = c
  rcases BitVec.eq_zero_or_eq_one mb with rfl | rfl
  · rw [ValueIdx.select_zero, ValueIdx.select_zero, ScoreLaws.scaled_sum_real, ScoreLaws.sum_div_sqrt_real]
    exact ScoreLaws.blend_eq _ hr c
  · rw [ValueIdx.select_one, ValueIdx.select_one, hfr]
    exact ScoreLaws.blend_eq fr hr c

end Cert.EntryScore

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelAttention.lean ====
/-
  The idealized kernel's body at one grid point, read index by index over the extended reals.

  At a grid point the body sees a block of 512 query rows, all 1024 key rows and value rows of one (batch, head) pair,
  and the matching 512 × 1024 blocks of the mask (as 32-bit words) and of the help scores. It computes
    * a score plane [512, 1024]: entry (p, q) is the query row p, scaled by 1/8, contracted with the key row q; replaced by
      the fill value where the mask word is not zero; then blended with the help score where that exceeds the sentinel;
    * the softmax of every row of that plane (the weights, its first stored value);
    * the weights contracted with the value rows over the 1024 keys (the context, its second stored value).
  Changes of float format are the identity here and a contraction into a zero accumulator is a plain sum, so each of these
  reads, at an index given by coordinates, as the textbook expression: `scorePlane_apply`, `weightPlane_apply`,
  `pay1_apply`, `pay2_apply`.
-/
import proofs.«175533_j44976897524605_2_alg».proof.Proof.Gen.KernelIdeal.Skeleton
import proofs.«175533_j44976897524605_2_alg».proof.Proof.RowSoftmax
import proofs.«175533_j44976897524605_2_alg».proof.Proof.EntryScore
import proofs.«175533_j44976897524605_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelAttention

open Cert.KernelIdeal Cert.KernelIdeal.Gen Idealize.ShloMosaic Idealize.ShloMosaic.ValueIdx Cert.EntryScore

/-- The blended score plane of one block, `[512, 1024]`: the scaled query rows contracted with the key rows, the masked
    entries replaced by the fill value, then blended with the help scores where those are valid. -/
def scorePlane (v0 : Vec Ideal S1x512x64 .f32) (v5 : Vec Ideal S1x1024x64 .f32) (v9 : Vec Ideal S1x512x1024 .i32)
    (v14 : Vec Ideal S1x512x1024 .f32) : FVec Ideal S512x1024 .f32 :=
  have v1 : FVec Ideal S512x64 .f32 := shapeCast S512x64 v0 shapeCasts_S1x512x64_S512x64
  have cst : Ideal .f32 := Scalar.ofBits .f32 0x3E000000#32
  have v2 : FVec Ideal S512x64 .f32 := broadcast S512x64 cst
  have v3 : FVec Ideal S512x64 .f32 := mulf v1 v2
  have v4 : FVec Ideal S512x64 .bf16 := truncf .bf16 v3 bitsLt_bf16_f32
  have v6 : FVec Ideal S1024x64 .f32 := shapeCast S1024x64 v5 shapeCasts_S1x1024x64_S1024x64
  have v7 : FVec Ideal S1024x64 .bf16 := truncf .bf16 v6 bitsLt_bf16_f32
  have cst_5 : FVec Ideal S512x1024 .f32 := constant S512x1024 .f32 0x00000000#32
  have v8 : FVec Ideal S512x1024 .f32 := matmul dot_S512x64_S1024x64_S512x1024_1_1_0_0_n_n none v4 v7 cst_5
  have v10 : IVec S512x1024 32 := shapeCast S512x1024 v9 shapeCasts_S1x512x1024_S512x1024
  have cst_9 : IVec S512x1024 32 := constantI S512x1024 32 0#32
  have v11 : IVec S512x1024 1 := cmpi .ne v10 cst_9
  have cst_10 : Ideal .f32 := Scalar.ofBits .f32 0xCE6E6B28#32
  have v12 : FVec Ideal S512x1024 .f32 := broadcast S512x1024 cst_10
  have v13 : FVec Ideal S512x1024 .f32 := select v11 v12 v8
  have v15 : FVec Ideal S512x1024 .f32 := shapeCast S512x1024 v14 shapeCasts_S1x512x1024_S512x1024
  have cst_14 : Ideal .f32 := Scalar.ofBits .f32 0xCCBEBC20#32
  have v16 : FVec Ideal S512x1024 .f32 := broadcast S512x1024 cst_14
  have v17 : IVec S512x1024 1 := cmpf .ogt v15 v16
  have v18 : IVec S512x1024 32 := extui 32 v17 natLt_1_32
  have v19 : FVec Ideal S512x1024 .f32 := sitofp .f32 v18
  have cst_15 : Ideal .f32 := Scalar.ofBits .f32 0x3F000000#32
  have v20 : FVec Ideal S512x1024 .f32 := broadcast S512x1024 cst_15
  have v21 : FVec Ideal S512x1024 .f32 := mulf v20 v19
  have v22 : FVec Ideal S512x1024 .f32 := subf v15 v13
  have v23 : FVec Ideal S512x1024 .f32 := mulf v21 v22
  addf v13 v23

/-- Every row's shift, broadcast back over the row: the row maximum (a lane reduction from the pattern of −∞, then `max`
    against that pattern once more), kept as a column `[512, 1]` and broadcast to `[512, 1024]`. -/
def shiftPlane (v24 : FVec Ideal S512x1024 .f32) : FVec Ideal S512x1024 .f32 :=
  have v25 : FVec Ideal S512 .f32 := multiReduction .maximumf [1] S512 v24 0xFF800000#32 reduces_S512x1024_S512 (.inl rfl) rfl
  have cst_17 : Ideal .f32 := Scalar.ofBits .f32 0xFF800000#32
  have v26 : FVec Ideal S512 .f32 := broadcast S512 cst_17
  have v27 : FVec Ideal S512 .f32 := maximumf v26 v25
  have v28 : FVec Ideal S512x1 .f32 := shapeCast S512x1 v27 shapeCasts_S512_S512x1
  broadcastTo S512x1024 v28 broadcasts_S512x1_S512x1024

/-- The softmax of every row of a `[512, 1024]` plane, as the body spells it: the row maximum (a lane reduction from the
    pattern of −∞, then `max` against that pattern once more), kept as a column and broadcast back, the exponential of the
    difference, the row sum kept as a column and broadcast back, the quotient. -/
def weightPlane (v24 : FVec Ideal S512x1024 .f32) : FVec Ideal S512x1024 .f32 :=
  have v29 : FVec Ideal S512x1024 .f32 := shiftPlane v24
  have v30 : FVec Ideal S512x1024 .f32 := subf v24 v29
  have v31 : FVec Ideal S512x1024 .f32 := exp v30
  have v32 : FVec Ideal S512 .f32 := multiReduction .add [1] S512 v31 0x00000000#32 reduces_S512x1024_S512 (.inl rfl) rfl
  have v33 : FVec Ideal S512x1 .f32 := shapeCast S512x1 v32 shapeCasts_S512_S512x1
  have v34 : FVec Ideal S512x1024 .f32 := broadcastTo S512x1024 v33 broadcasts_S512x1_S512x1024
  divf v31 v34

/-- The body's attention weights are the row softmax of its score plane (the printed payload, cut in two). -/
theorem pay3_eq (v0 : Vec Ideal S1x512x64 .f32) (v5 : Vec Ideal S1x1024x64 .f32) (v9 : Vec Ideal S1x512x1024 .i32)
    (v14 : Vec Ideal S1x512x1024 .f32) : k0_pay3 (F := Ideal) v0 v5 v9 v14 = weightPlane (scorePlane v0 v5 v9 v14) := rfl

/-! ## The two contractions read at an index -/

local notation "Dqk" => dot_S512x64_S1024x64_S512x1024_1_1_0_0_n_n
local notation "Dav" => dot_S512x1024_S1024x64_S512x64_1_0_0_1_n_n

theorem qk_lhs0 (j : S512x1024.Idx) (k : (Dqk).contr.Idx) : ((Dqk).lhsIdx j k 0).val = (j 0).val := by
  unfold DotDims.lhsIdx
  rw [dif_neg (show ¬(0 : Fin S512x64.rank) ∈ (Dqk).lhsBatch by decide), dif_pos (show (0 : Fin S512x64.rank) ∈ (Dqk).lhsNonContracting by decide)]
  rfl
theorem qk_rhs0 (j : S512x1024.Idx) (k : (Dqk).contr.Idx) : ((Dqk).rhsIdx j k 0).val = (j 1).val := by
  unfold DotDims.rhsIdx
  rw [dif_neg (show ¬(0 : Fin S1024x64.rank) ∈ (Dqk).rhsBatch by decide), dif_pos (show (0 : Fin S1024x64.rank) ∈ (Dqk).rhsNonContracting by decide)]
  rfl
theorem av_lhs0 (j : S512x64.Idx) (k : (Dav).contr.Idx) : ((Dav).lhsIdx j k 0).val = (j 0).val := by
  unfold DotDims.lhsIdx
  rw [dif_neg (show ¬(0 : Fin S512x1024.rank) ∈ (Dav).lhsBatch by decide), dif_pos (show (0 : Fin S512x1024.rank) ∈ (Dav).lhsNonContracting by decide)]
  rfl
theorem av_rhs1 (j : S512x64.Idx) (k : (Dav).contr.Idx) : ((Dav).rhsIdx j k 1).val = (j 1).val := by
  unfold DotDims.rhsIdx
  rw [dif_neg (show ¬(1 : Fin S1024x64.rank) ∈ (Dav).rhsBatch by decide), dif_pos (show (1 : Fin S1024x64.rank) ∈ (Dav).rhsNonContracting by decide)]
  rfl

/-- Query rows against key rows, both contracted over their 64 features, into a zero accumulator: entry `(p, q)` is
    the sum over the features of row `p` of the left operand times row `q` of the right one. -/
theorem qk_apply {φ₁ φ₂ : FTy} (A : FVec Ideal S512x64 φ₁) (B : FVec Ideal S1024x64 φ₂) (p : Fin 512) (q : Fin 1024) :
    matmul Dqk none A B (constant S512x1024 .f32 0x00000000#32) (ix2 p q) = ∑ d : Fin 64, A (ix2 p d) * B (ix2 q d) := by
  simp only [matmul]
  rw [Ideal.matmul_constant_zero_apply, ← Equiv.sum_comp (contrEquiv1 Dqk 64 rfl rfl).symm]
  refine Finset.sum_congr rfl fun k _ => ?_
  have hk := contrEquiv1_symm_val Dqk 64 rfl rfl k
  have el : (Dqk).lhsIdx (ix2 p q) ((contrEquiv1 Dqk 64 rfl rfl).symm k) = ix2 p k := funext fun a => Fin.ext (by
    match a with
    | ⟨0, _⟩ => exact qk_lhs0 _ _
    | ⟨1, _⟩ => exact ((Dqk).lhsIdx_val_of_single rfl _ _).trans hk)
  have er : (Dqk).rhsIdx (ix2 p q) ((contrEquiv1 Dqk 64 rfl rfl).symm k) = ix2 q k := funext fun a => Fin.ext (by
    match a with
    | ⟨0, _⟩ => exact qk_rhs0 _ _
    | ⟨1, _⟩ => exact ((Dqk).rhsIdx_val_of_single rfl _ _).trans hk)
  rw [el, er]

/-- Weight rows against value columns, contracted over the 1024 keys, into a zero accumulator. -/
theorem av_apply {φ₁ φ₂ : FTy} (A : FVec Ideal S512x1024 φ₁) (B : FVec Ideal S1024x64 φ₂) (p : Fin 512) (d : Fin 64) :
    matmul Dav none A B (constant S512x64 .f32 0x00000000#32) (ix2 p d) = ∑ k : Fin 1024, A (ix2 p k) * B (ix2 k d) := by
  simp only [matmul]
  rw [Ideal.matmul_constant_zero_apply, ← Equiv.sum_comp (contrEquiv1 Dav 1024 rfl rfl).symm]
  refine Finset.sum_congr rfl fun k _ => ?_
  have hk := contrEquiv1_symm_val Dav 1024 rfl rfl k
  have el : (Dav).lhsIdx (ix2 p d) ((contrEquiv1 Dav 1024 rfl rfl).symm k) = ix2 p k := funext fun a => Fin.ext (by
    match a with
    | ⟨0, _⟩ => exact av_lhs0 _ _
    | ⟨1, _⟩ => exact ((Dav).lhsIdx_val_of_single rfl _ _).trans hk)
  have er : (Dav).rhsIdx (ix2 p d) ((contrEquiv1 Dav 1024 rfl rfl).symm k) = ix2 k d := funext fun a => Fin.ext (by
    match a with
    | ⟨0, _⟩ => exact ((Dav).rhsIdx_val_of_single rfl _ _).trans hk
    | ⟨1, _⟩ => exact av_rhs1 _ _)
  rw [el, er]

/-! ## The row reductions read at an index -/

/-- Inserting lane `k` into row `p` of the reduced shape gives the plane's index `(p, k)`. -/
theorem lift_row (p : Fin 512) (k : Fin 1024) : reduces_S512x1024_S512.lift (ix1 p) k = ix2 p k := by
  funext a; apply Fin.ext
  match a with
  | ⟨0, _⟩ => rfl
  | ⟨1, _⟩ => rfl

/-- A row's maximum from the pattern of −∞: the fold of `max` over the row's entries. -/
theorem rowMax_apply (s : FVec Ideal S512x1024 .f32) (hφ : FKind.Formats .f32)
    (hacc : (0xFF800000#32 : BitVec 32) = FKind.maximumf.neutral .f32 hφ) (p : Fin 512) :
    multiReduction .maximumf [1] S512 s 0xFF800000#32 reduces_S512x1024_S512 hφ hacc (ix1 p)
      = (Finset.univ : Finset (Fin 1024)).fold max Cert.Attention.negInfWord (fun k : Fin 1024 => s (ix2 p k)) :=
  (Ideal.multiReduction_maximumf_single s _ reduces_S512x1024_S512 hφ hacc (ix1 p)).trans
    (congrArg (fun f : Fin 1024 → EReal => (Finset.univ : Finset (Fin 1024)).fold max Cert.Attention.negInfWord f)
      (funext fun k => congrArg s (lift_row p k)))

/-- A row's sum: the sum over the row's entries. -/
theorem rowSum_apply (e : FVec Ideal S512x1024 .f32) (hφ : FKind.Formats .f32)
    (hacc : (0x00000000#32 : BitVec 32) = FKind.add.neutral .f32 hφ) (p : Fin 512) :
    multiReduction .add [1] S512 e 0x00000000#32 reduces_S512x1024_S512 hφ hacc (ix1 p) = ∑ k : Fin 1024, e (ix2 p k) :=
  (Ideal.multiReduction_add_single e _ reduces_S512x1024_S512 hφ hacc (ix1 p)).trans
    (Finset.sum_congr rfl fun k _ => congrArg e (lift_row p k))

/-- The shift plane at `(p, k)` is row `p`'s shift, whatever `k`. -/
theorem shiftPlane_apply (s : FVec Ideal S512x1024 .f32) (p : Fin 512) (k : Fin 1024) :
    shiftPlane s (ix2 p k) = Cert.Attention.rowShift (fun k : Fin 1024 => s (ix2 p k)) := by
  unfold shiftPlane
  dsimp only
  rw [Cert.ColumnLayout.broadcastTo_a1_ab_apply, Cert.ColumnLayout.shapeCast_a_a1_apply, maximumf_apply, broadcast_apply]
  unfold Cert.Attention.rowShift
  exact congrArg (max Cert.Attention.negInfWord) (rowMax_apply s _ _ p)

/-- The weight plane at `(p, q)` is the softmax weight of entry `q` of row `p`. -/
theorem weightPlane_apply (s : FVec Ideal S512x1024 .f32) (p : Fin 512) (q : Fin 1024) :
    weightPlane s (ix2 p q) = Cert.Attention.rowWeight (fun k : Fin 1024 => s (ix2 p k)) q := by
  unfold weightPlane
  dsimp only
  rw [divf_apply, Cert.ColumnLayout.broadcastTo_a1_ab_apply, Cert.ColumnLayout.shapeCast_a_a1_apply]
  unfold Cert.Attention.rowWeight
  refine congrArg₂ Ideal.div ?_ ((rowSum_apply _ _ _ p).trans (Finset.sum_congr rfl fun k _ => ?_))
  · show Ideal.exp (s (ix2 p q) - shiftPlane s (ix2 p q)) = _
    rw [shiftPlane_apply]
  · show Ideal.exp (s (ix2 p k) - shiftPlane s (ix2 p k)) = _
    rw [shiftPlane_apply]

/-! ## The score plane read at an index -/

/-- The score plane at `(p, q)` is the entry score of query row `p`, key row `q`, the mask word and the help score there. -/
theorem scorePlane_apply (v0 : Vec Ideal S1x512x64 .f32) (v5 : Vec Ideal S1x1024x64 .f32) (v9 : Vec Ideal S1x512x1024 .i32)
    (v14 : Vec Ideal S1x512x1024 .f32) (p : Fin 512) (q : Fin 1024) :
    scorePlane v0 v5 v9 v14 (ix2 p q)
      = entryScore (fun d => v0 (ix3 (0 : Fin 1) p d)) (fun d => v5 (ix3 (0 : Fin 1) q d)) (v9 (ix3 (0 : Fin 1) p q)) (v14 (ix3 (0 : Fin 1) p q)) := by
  unfold scorePlane
  rw [addf_apply, select_apply, mulf_apply, mulf_apply, subf_apply, select_apply, broadcast_apply, broadcast_apply, sitofp_apply, extui_apply, cmpf_apply, broadcast_apply]
  have hh : shapeCast S512x1024 v14 shapeCasts_S1x512x1024_S512x1024 (ix2 p q) = v14 (ix3 (0 : Fin 1) p q) :=
    shapeCast_1ab_ab_apply v14 _ p q
  have hw : cmpi .ne (shapeCast S512x1024 v9 shapeCasts_S1x512x1024_S512x1024) (constantI S512x1024 32 0#32) (ix2 p q)
      = IntOp.cmpi .ne (v9 (ix3 (0 : Fin 1) p q)) 0#32 := by
    show IntOp.cmpi .ne (shapeCast S512x1024 v9 shapeCasts_S1x512x1024_S512x1024 (ix2 p q)) 0#32 = _
    rw [shapeCast_1ab_ab_apply]
  rw [hh, hw, qk_apply]
  simp only [truncf_apply, mulf_apply, broadcast_apply, shapeCast_1ab_ab_apply]
  rfl

/-! ## The two stored payloads read at an index -/

/-- The weights stored to the `[1, 512, 1024]` block read the weight plane. -/
theorem pay1_apply (A : FVec Ideal S512x1024 .f32) (u : Fin 1) (p : Fin 512) (q : Fin 1024) :
    k0_pay1 (F := Ideal) A (ix3 u p q) = A (ix2 p q) := by
  unfold k0_pay1
  exact shapeCast_ab_1ab_apply A _ u p q

/-- The context stored to the `[1, 512, 64]` block: row `p` of the weights against column `d` of the value block. -/
theorem pay2_apply (A : FVec Ideal S512x1024 .f32) (v39 : Vec Ideal S1x1024x64 .f32) (u : Fin 1) (p : Fin 512) (d : Fin 64) :
    k0_pay2 (F := Ideal) A v39 (ix3 u p d) = ∑ k : Fin 1024, A (ix2 p k) * v39 (ix3 (0 : Fin 1) k d) := by
  unfold k0_pay2
  rw [shapeCast_ab_1ab_apply, av_apply]
  refine Finset.sum_congr rfl fun k _ => ?_
  rw [truncf_apply, truncf_apply, shapeCast_1ab_ab_apply]

end Cert.KernelAttention
end
-- ==== Proof.RefAttention.lean ====
/-
  The reference program's two results read at an index given by its coordinates.

  At batch `b`, head `h`, row `r`: the blended score of column `k` is `refScore` below (the contraction of the
  query row with the key row over the 64 features, divided by a square root, masked, and blended with the help
  score under the help score's validity bit); the row's shift is the row maximum of those scores; the attention
  weight of column `k` is the softmax weight of the row of scores; the context is the weights contracted with
  the values over the 1024 columns. Every literal stays the word the program spells.
-/
import proofs.«175533_j44976897524605_2_alg».proof.Proof.Gen.ReferenceIdeal.Read
import proofs.«175533_j44976897524605_2_alg».proof.Proof.RowSoftmax
import proofs.«175533_j44976897524605_2_alg».proof.Proof.EntryScore
import Idealize.ShloMosaic.Lib.ValueIdx
import Idealize.ShloMosaic.PureOps.Ideal.Laws
import Idealize.ShloMosaic.PureOps.Reduce

noncomputable section

namespace Cert.RefAttention

open Idealize.ShloMosaic Idealize.ShloMosaic.ValueIdx Cert.ReferenceIdeal Cert.ReferenceIdeal.Read

/-! ### The blended score -/

/-- The reference's blended score at row `(b, h, r)`, column `k`: with `v` the validity bit of the help score
    `H` (one when `H` exceeds the threshold word, zero otherwise) read as a real,
    `H·(v·½) + select(M, fill, (∑ d, Q·K) / √64)·(v·½ + (1 − v))`, every literal kept as its word. -/
def refScore (Q K : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r k : Fin 1024) : EReal :=
  let v : EReal := (((Ideal.cmp .ogt (H (ix4 b h r k)) (Ideal.ofBits .f32 0xCCBEBC20#32)).toNat : ℝ) : EReal)
  H (ix4 b h r k) * (v * Ideal.ofBits .f32 0x3F000000#32)
    + Scalar.select (M (ix4 b h r k)) (Ideal.ofBits .f32 0xCE6E6B28#32)
        (Ideal.div (∑ d : Fin 64, Q (ix4 b h r d) * K (ix4 b h k d)) (Ideal.sqrt (Ideal.ofBits .f32 0x42800000#32)))
      * (v * Ideal.ofBits .f32 0x3F000000#32 + (Ideal.ofBits .f32 0x3F800000#32 - v))

/-- The first contraction reads the query at `(b, h, r, d)`: batch axes and the row kept, the feature summed. -/
theorem lidx_v0 (b : Fin 4) (h : Fin 12) (r k : Fin 1024) (d : Fin 64) :
    lidx_main_v0 (ix4 b h r k) d = ix4 b h r d :=
  funext fun a => Fin.ext (by match a with | ⟨0, _⟩ => rfl | ⟨1, _⟩ => rfl | ⟨2, _⟩ => rfl | ⟨3, _⟩ => rfl)

/-- … and the key at `(b, h, k, d)`: the result's column is the key's row. -/
theorem ridx_v0 (b : Fin 4) (h : Fin 12) (r k : Fin 1024) (d : Fin 64) :
    ridx_main_v0 (ix4 b h r k) d = ix4 b h k d :=
  funext fun a => Fin.ext (by match a with | ⟨0, _⟩ => rfl | ⟨1, _⟩ => rfl | ⟨2, _⟩ => rfl | ⟨3, _⟩ => rfl)

/-- The seventeenth value of the reference at `(b, h, r, k)` is the blended score: every operation up to it is
    elementwise or a broadcast of a scalar, except the contraction, which is the sum over the features. -/
theorem score_apply (Q K : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r k : Fin 1024) :
    val_main_v17 (F := Ideal) Q K M H (ix4 b h r k) = refScore Q K M H b h r k := by
  rw [val_main_v17_apply, val_main_v15_apply, val_main_v16_apply, val_main_v14_apply, val_main_v13_apply,
    val_main_v12_apply, val_main_v11_apply, val_main_v10_apply, val_main_v9_apply, val_main_v8_apply,
    val_main_v7_apply, val_main_v6_apply, val_main_v5_apply, val_main_v4_apply, val_main_v3_apply,
    val_main_v2_apply, val_main_v1_apply, val_main_v0_apply, val_main_call0_v0_apply,
    val_main_cst_apply, val_main_cst_0_apply, val_main_cst_1_apply, val_main_cst_2_apply,
    val_main_cst_3_apply, val_main_cst_4_apply]
  simp only [lidx_v0, ridx_v0, Ideal.mulf_def, Ideal.addf_def, Ideal.subf_def, Ideal.hostDivf_def,
    Ideal.hostUnary_sqrt_def, Ideal.ofBits_def, Ideal.cmpf_def]
  rfl

/-- The blended score at `(b, h, r, k)` is the one-entry score of the query row `(b, h, r, ·)`, the key row
    `(b, h, k, ·)`, the mask bit and the help score at `(b, h, r, k)`. -/
theorem refScore_eq (Q K : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r k : Fin 1024) :
    refScore Q K M H b h r k
      = Cert.EntryScore.refEntry (fun d => Q (ix4 b h r d)) (fun d => K (ix4 b h k d))
          (M (ix4 b h r k)) (H (ix4 b h r k)) := rfl

/-! ### The context -/

/-- The second contraction reads the weights at `(b, h, r, k)`: batch axes and the row kept, the column summed. -/
theorem lidx_v29 (b : Fin 4) (h : Fin 12) (r : Fin 1024) (d : Fin 64) (k : Fin 1024) :
    lidx_main_v29 (ix4 b h r d) k = ix4 b h r k :=
  funext fun a => Fin.ext (by match a with | ⟨0, _⟩ => rfl | ⟨1, _⟩ => rfl | ⟨2, _⟩ => rfl | ⟨3, _⟩ => rfl)

/-- … and the values at `(b, h, k, d)`: the summed column is the value's row, the feature kept. -/
theorem ridx_v29 (b : Fin 4) (h : Fin 12) (r : Fin 1024) (d : Fin 64) (k : Fin 1024) :
    ridx_main_v29 (ix4 b h r d) k = ix4 b h k d :=
  funext fun a => Fin.ext (by match a with | ⟨0, _⟩ => rfl | ⟨1, _⟩ => rfl | ⟨2, _⟩ => rfl | ⟨3, _⟩ => rfl)

/-- The context at `(b, h, r, d)` is the sum over the columns `k` of the weight at `(b, h, r, k)` times the
    value at `(b, h, k, d)`. -/
theorem ctx_apply (Q K Vv : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r : Fin 1024) (d : Fin 64) :
    val_main_v29 (F := Ideal) Q K Vv M H (ix4 b h r d)
      = ∑ k : Fin 1024, val_main_v28 (F := Ideal) Q K M H (ix4 b h r k) * Vv (ix4 b h k d) := by
  rw [val_main_v29_apply]
  simp only [lidx_v29, ridx_v29]

/-! ### The row's shift -/

/-- Reducing the last axis: the index over `(b, h, r)` with coordinate `k` inserted on the dropped axis is
    `(b, h, r, k)`. -/
theorem lift_ix3 (hR : S4x12x1024x1024.Reduces [3] S4x12x1024) (b : Fin 4) (h : Fin 12) (r k : Fin 1024) :
    hR.lift (ix3 b h r) k = ix4 b h r k :=
  funext fun a => Fin.ext (by match a with | ⟨0, _⟩ => rfl | ⟨1, _⟩ => rfl | ⟨2, _⟩ => rfl | ⟨3, _⟩ => rfl)

/-- The reference's shift of row `(b, h, r)`: the maximum over the row's 1024 scores, folded from the pattern
    of −∞ (`max` commutes and associates, so the fold runs over the set of columns in any order), and once
    more `max` against that pattern. -/
theorem shift_apply (Q K : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r : Fin 1024) :
    val_main_v20 (F := Ideal) Q K M H (ix3 b h r)
      = Cert.Attention.rowShift (fun k => refScore Q K M H b h r k) := by
  have hR : S4x12x1024x1024.Reduces [3] S4x12x1024 := by decide
  rw [val_main_v20_apply, val_main_v19_apply, val_main_cst_6_apply]
  unfold val_main_v18
  rw [Host.reduce_eq_fold_single FloatOps.maximumf _ _ _ hR _, val_main_cst_5_apply]
  have hx : (val_main_v17 (F := Ideal) Q K M H ∘ hR.lift (ix3 b h r))
      = fun k : Fin 1024 => refScore Q K M H b h r k :=
    funext fun k => (congrArg (val_main_v17 (F := Ideal) Q K M H) (lift_ix3 hR b h r k)).trans
      (score_apply Q K M H b h r k)
  rw [hx]
  rfl

/-! ### The attention weights -/

/-- The shift is broadcast back along the column axis through a unit axis: at `(b, h, r, k)` it is read at
    `(b, h, r)`. -/
theorem idx_v22_v21 (b : Fin 4) (h : Fin 12) (r k : Fin 1024) :
    idx_main_v21 (idx_main_v22 (ix4 b h r k)) = ix3 b h r :=
  funext fun a => Fin.ext (by match a with | ⟨0, _⟩ => rfl | ⟨1, _⟩ => rfl | ⟨2, _⟩ => rfl)

/-- The row's sum is broadcast back the same way. -/
theorem idx_v27_v26 (b : Fin 4) (h : Fin 12) (r k : Fin 1024) :
    idx_main_v26 (idx_main_v27 (ix4 b h r k)) = ix3 b h r :=
  funext fun a => Fin.ext (by match a with | ⟨0, _⟩ => rfl | ⟨1, _⟩ => rfl | ⟨2, _⟩ => rfl)

/-- The row's sum over the last axis reads `(b, h, r, k)` for each column `k`. -/
theorem idx_v25 (b : Fin 4) (h : Fin 12) (r k : Fin 1024) :
    idx_main_v25 (ix3 b h r) k = ix4 b h r k :=
  funext fun a => Fin.ext (by match a with | ⟨0, _⟩ => rfl | ⟨1, _⟩ => rfl | ⟨2, _⟩ => rfl | ⟨3, _⟩ => rfl)

/-- The numerator at `(b, h, r, k)`: the exponential of the score minus the row's shift. -/
theorem exp_apply (Q K : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r k : Fin 1024) :
    val_main_v24 (F := Ideal) Q K M H (ix4 b h r k)
      = Ideal.exp (refScore Q K M H b h r k
          - Cert.Attention.rowShift (fun k' => refScore Q K M H b h r k')) := by
  rw [val_main_v24_apply, val_main_v23_apply, val_main_v22_apply, val_main_v21_apply, idx_v22_v21,
    shift_apply, score_apply]
  simp only [Ideal.hostUnary_exp_def, Ideal.subf_def]

/-- The reference's attention weight at `(b, h, r, k)` is the softmax weight of column `k` in the row of
    blended scores: the numerator above over the sum of the numerators along the row (the sum starts from the
    pattern of zero, which denotes `0`). -/
theorem attn_apply (Q K : (⟨S4x12x1024x64, .f32⟩ : BufTy).Contents (Elt Ideal))
    (M : (⟨S4x12x1024x1024, .i1⟩ : BufTy).Contents (Elt Ideal))
    (H : (⟨S4x12x1024x1024, .f32⟩ : BufTy).Contents (Elt Ideal))
    (b : Fin 4) (h : Fin 12) (r k : Fin 1024) :
    val_main_v28 (F := Ideal) Q K M H (ix4 b h r k)
      = Cert.Attention.rowWeight (fun k' => refScore Q K M H b h r k') k := by
  rw [val_main_v28_apply, val_main_v27_apply, val_main_v26_apply, idx_v27_v26, val_main_v25_apply,
    val_main_cst_7_apply, exp_apply]
  simp only [idx_v25, exp_apply, Ideal.hostDivf_def, Ideal.ofBits_def, Ideal.ofBits_zero_f32, zero_add]
  rfl

end Cert.RefAttention

end
-- ==== Proof.GridGeometry.lean ====
import proofs.«175533_j44976897524605_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

/-!
# The geometry of the one pipelined call

The kernel reshapes its five arguments from `[4,12,1024,*]` to `[48,1024,*]` (merging the batch axis of extent 4 and the
head axis of extent 12), widens the one-bit mask to 32-bit words, runs one pipelined call over the grid `(48, 2)` —
grid point `t` is `(t / 2, t % 2)`: the merged batch-head index `t / 2 = 12 · batch + head` and the half `t % 2` of the
1024 query rows — and reshapes the two results back. This module records, with no arithmetic of the body: what the
arrays hold around the call, which array element each block element is, that the output blocks cover the output
arrays, and the run with its results named.
-/

noncomputable section
namespace Cert.KernelGeometry
open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The arrays as the region finds them

Before the region the five argument arrays are reshaped from `[4,12,1024,*]` to `[48,1024,*]` (the batch and head
axes merged, row-major), and the one-bit mask is zero-extended to 32-bit words. -/

theorem V_v0 (c : Dev nD) : (V m c main_v0 : S48x1024x64.Idx → EReal)
    = shapeCast S48x1024x64 (m ((c : Thread nD τ).loc main_arg0)) shapeCasts_S4x12x1024x64_S48x1024x64 := by
  show StableHlo.after hostOps0 (fun b => m (c, b)) (Proc.devRef .tc main_v0) = _
  after_results; rfl

theorem V_v1 (c : Dev nD) : (V m c main_v1 : S48x1024x64.Idx → EReal)
    = shapeCast S48x1024x64 (m ((c : Thread nD τ).loc main_arg1)) shapeCasts_S4x12x1024x64_S48x1024x64 := by
  show StableHlo.after hostOps0 (fun b => m (c, b)) (Proc.devRef .tc main_v1) = _
  after_results; rfl

theorem V_v2 (c : Dev nD) : (V m c main_v2 : S48x1024x64.Idx → EReal)
    = shapeCast S48x1024x64 (m ((c : Thread nD τ).loc main_arg2)) shapeCasts_S4x12x1024x64_S48x1024x64 := by
  show StableHlo.after hostOps0 (fun b => m (c, b)) (Proc.devRef .tc main_v2) = _
  after_results; rfl

theorem V_v4 (c : Dev nD) : (V m c main_v4 : S48x1024x1024.Idx → EReal)
    = shapeCast S48x1024x1024 (m ((c : Thread nD τ).loc main_arg4)) shapeCasts_S4x12x1024x1024_S48x1024x1024 := by
  show StableHlo.after hostOps0 (fun b => m (c, b)) (Proc.devRef .tc main_v4) = _
  after_results; rfl

theorem V_v5 (c : Dev nD) : (V m c main_v5 : S48x1024x1024.Idx → BitVec 32)
    = extui 32 (shapeCast S48x1024x1024 (m ((c : Thread nD τ).loc main_arg3)) shapeCasts_S4x12x1024x1024_S48x1024x1024) natLt_1_32 := by
  show StableHlo.after hostOps0 (fun b => m (c, b)) (Proc.devRef .tc main_v5) = _
  after_results; rfl

/-- Which array each of the seven windows stages: the three reshaped `[48,1024,64]` inputs, the widened mask, the
    reshaped `[48,1024,1024]` input, and the two results. -/
theorem arrRef_eq : Pipeline.arrRef spec0 0 = main_v0 ∧ Pipeline.arrRef spec0 1 = main_v1 ∧ Pipeline.arrRef spec0 2 = main_v2
    ∧ Pipeline.arrRef spec0 3 = main_v5 ∧ Pipeline.arrRef spec0 4 = main_v4 ∧ Pipeline.arrRef spec0 5 = main_v6_0
    ∧ Pipeline.arrRef spec0 6 = main_v6_1 := ⟨rfl, rfl, rfl, rfl, rfl, rfl, rfl⟩

/-! ## The grid point's coordinates

The grid has 96 points; point `t` is `(t / 2, t % 2)`. The first coordinate is the merged batch-head index
`12 · batch + head`, the second picks the lower or the upper 512 of the 1024 query rows. -/

theorem t_lt (t : Fin cfg0.N) : t.val < 96 := lt_of_lt_of_eq t.isLt N_0

/-- The batch of grid point `t`. -/
def batchOf (t : Fin cfg0.N) : Fin 4 := ⟨t.val / 2 / 12, by have := t_lt t; omega⟩
/-- The head of grid point `t`. -/
def headOf (t : Fin cfg0.N) : Fin 12 := ⟨t.val / 2 % 12, by omega⟩
/-- The merged batch-head index of grid point `t`. -/
def bhOf (t : Fin cfg0.N) : Fin 48 := ⟨t.val / 2, by have := t_lt t; omega⟩
/-- The query row of the array that row `p` of point `t`'s block is. -/
def rowOf (t : Fin cfg0.N) (p : Fin 512) : Fin 1024 := ⟨512 * (t.val % 2) + p.val, by have := p.isLt; omega⟩

theorem batchOf_val (t : Fin cfg0.N) : (batchOf t).val = t.val / 2 / 12 := rfl
theorem headOf_val (t : Fin cfg0.N) : (headOf t).val = t.val / 2 % 12 := rfl
theorem bhOf_val (t : Fin cfg0.N) : (bhOf t).val = t.val / 2 := rfl
theorem rowOf_val (t : Fin cfg0.N) (p : Fin 512) : (rowOf t p).val = 512 * (t.val % 2) + p.val := rfl

/-- The merged index is `12 · batch + head`. -/
theorem bhOf_eq (t : Fin cfg0.N) : (bhOf t).val = 12 * (batchOf t).val + (headOf t).val := by
  rw [bhOf_val, batchOf_val, headOf_val]; omega

/-- The printed index maps, decided over the 96 grid points. Windows 0, 3, 4, 5, 6 move with both grid coordinates:
    block `(t / 2, t % 2, 0)`. -/
theorem idx0 : ∀ t : Fin cfg0.N,
    win0_0.index t (0 : Fin 3) = t.val / 2 ∧ win0_0.index t (1 : Fin 3) = t.val % 2 ∧ win0_0.index t (2 : Fin 3) = 0 :=
  (by decide +kernel : ∀ t : Fin grid0.N, _)
/-- Windows 1 and 2 move with the first grid coordinate only: block `(t / 2, 0, 0)`. -/
theorem idx1 : ∀ t : Fin cfg0.N,
    win0_1.index t (0 : Fin 3) = t.val / 2 ∧ win0_1.index t (1 : Fin 3) = 0 ∧ win0_1.index t (2 : Fin 3) = 0 :=
  (by decide +kernel : ∀ t : Fin grid0.N, _)
theorem idx2 : ∀ t : Fin cfg0.N,
    win0_2.index t (0 : Fin 3) = t.val / 2 ∧ win0_2.index t (1 : Fin 3) = 0 ∧ win0_2.index t (2 : Fin 3) = 0 :=
  (by decide +kernel : ∀ t : Fin grid0.N, _)
theorem idx3 : ∀ t : Fin cfg0.N,
    win0_3.index t (0 : Fin 3) = t.val / 2 ∧ win0_3.index t (1 : Fin 3) = t.val % 2 ∧ win0_3.index t (2 : Fin 3) = 0 :=
  (by decide +kernel : ∀ t : Fin grid0.N, _)
theorem idx4 : ∀ t : Fin cfg0.N,
    win0_4.index t (0 : Fin 3) = t.val / 2 ∧ win0_4.index t (1 : Fin 3) = t.val % 2 ∧ win0_4.index t (2 : Fin 3) = 0 :=
  (by decide +kernel : ∀ t : Fin grid0.N, _)
theorem idx5 : ∀ t : Fin cfg0.N,
    win0_5.index t (0 : Fin 3) = t.val / 2 ∧ win0_5.index t (1 : Fin 3) = t.val % 2 ∧ win0_5.index t (2 : Fin 3) = 0 :=
  (by decide +kernel : ∀ t : Fin grid0.N, _)
theorem idx6 : ∀ t : Fin cfg0.N,
    win0_6.index t (0 : Fin 3) = t.val / 2 ∧ win0_6.index t (1 : Fin 3) = t.val % 2 ∧ win0_6.index t (2 : Fin 3) = 0 :=
  (by decide +kernel : ∀ t : Fin grid0.N, _)

/-! ## Which array element each block element is

On each axis a block element sits in the array at the block index times the block's extent plus its own coordinate. -/

theorem emb_q (t : Fin cfg0.N) (u : Fin 1) (p : Fin 512) (d : Fin 64) :
    ((cfg0.win 0).blk t).view.emb (ix3 u p d) = ix3 (bhOf t) (rowOf t p) d := by
  obtain ⟨e0, e1, e2⟩ := idx0 t
  funext a; apply Fin.ext
  match a with
  | ⟨0, _⟩ => show win0_0.index t (0 : Fin 3) * 1 + 1 * u.val = t.val / 2; have := u.isLt; omega
  | ⟨1, _⟩ => show win0_0.index t (1 : Fin 3) * 512 + 1 * p.val = 512 * (t.val % 2) + p.val; omega
  | ⟨2, _⟩ => show win0_0.index t (2 : Fin 3) * 64 + 1 * d.val = d.val; omega

theorem emb_k (t : Fin cfg0.N) (u : Fin 1) (q : Fin 1024) (d : Fin 64) :
    ((cfg0.win 1).blk t).view.emb (ix3 u q d) = ix3 (bhOf t) q d := by
  obtain ⟨e0, e1, e2⟩ := idx1 t
  funext a; apply Fin.ext
  match a with
  | ⟨0, _⟩ => show win0_1.index t (0 : Fin 3) * 1 + 1 * u.val = t.val / 2; have := u.isLt; omega
  | ⟨1, _⟩ => show win0_1.index t (1 : Fin 3) * 1024 + 1 * q.val = q.val; omega
  | ⟨2, _⟩ => show win0_1.index t (2 : Fin 3) * 64 + 1 * d.val = d.val; omega

theorem emb_v (t : Fin cfg0.N) (u : Fin 1) (q : Fin 1024) (d : Fin 64) :
    ((cfg0.win 2).blk t).view.emb (ix3 u q d) = ix3 (bhOf t) q d := by
  obtain ⟨e0, e1, e2⟩ := idx2 t
  funext a; apply Fin.ext
  match a with
  | ⟨0, _⟩ => show win0_2.index t (0 : Fin 3) * 1 + 1 * u.val = t.val / 2; have := u.isLt; omega
  | ⟨1, _⟩ => show win0_2.index t (1 : Fin 3) * 1024 + 1 * q.val = q.val; omega
  | ⟨2, _⟩ => show win0_2.index t (2 : Fin 3) * 64 + 1 * d.val = d.val; omega

theorem emb_mask (t : Fin cfg0.N) (u : Fin 1) (p : Fin 512) (q : Fin 1024) :
    ((cfg0.win 3).blk t).view.emb (ix3 u p q) = ix3 (bhOf t) (rowOf t p) q := by
  obtain ⟨e0, e1, e2⟩ := idx3 t
  funext a; apply Fin.ext
  match a with
  | ⟨0, _⟩ => show win0_3.index t (0 : Fin 3) * 1 + 1 * u.val = t.val / 2; have := u.isLt; omega
  | ⟨1, _⟩ => show win0_3.index t (1 : Fin 3) * 512 + 1 * p.val = 512 * (t.val % 2) + p.val; omega
  | ⟨2, _⟩ => show win0_3.index t (2 : Fin 3) * 1024 + 1 * q.val = q.val; omega

theorem emb_help (t : Fin cfg0.N) (u : Fin 1) (p : Fin 512) (q : Fin 1024) :
    ((cfg0.win 4).blk t).view.emb (ix3 u p q) = ix3 (bhOf t) (rowOf t p) q := by
  obtain ⟨e0, e1, e2⟩ := idx4 t
  funext a; apply Fin.ext
  match a with
  | ⟨0, _⟩ => show win0_4.index t (0 : Fin 3) * 1 + 1 * u.val = t.val / 2; have := u.isLt; omega
  | ⟨1, _⟩ => show win0_4.index t (1 : Fin 3) * 512 + 1 * p.val = 512 * (t.val % 2) + p.val; omega
  | ⟨2, _⟩ => show win0_4.index t (2 : Fin 3) * 1024 + 1 * q.val = q.val; omega

/-- Output window 5 (the `[48,1024,64]` result): the same placement as the query block. -/
theorem emb_ctx (t : Fin cfg0.N) (u : Fin 1) (p : Fin 512) (d : Fin 64) :
    ((cfg0.win 5).blk t).view.emb (ix3 u p d) = ix3 (bhOf t) (rowOf t p) d := by
  obtain ⟨e0, e1, e2⟩ := idx5 t
  funext a; apply Fin.ext
  match a with
  | ⟨0, _⟩ => show win0_5.index t (0 : Fin 3) * 1 + 1 * u.val = t.val / 2; have := u.isLt; omega
  | ⟨1, _⟩ => show win0_5.index t (1 : Fin 3) * 512 + 1 * p.val = 512 * (t.val % 2) + p.val; omega
  | ⟨2, _⟩ => show win0_5.index t (2 : Fin 3) * 64 + 1 * d.val = d.val; omega

/-- Output window 6 (the `[48,1024,1024]` result): the same placement as the mask block. -/
theorem emb_attn (t : Fin cfg0.N) (u : Fin 1) (p : Fin 512) (q : Fin 1024) :
    ((cfg0.win 6).blk t).view.emb (ix3 u p q) = ix3 (bhOf t) (rowOf t p) q := by
  obtain ⟨e0, e1, e2⟩ := idx6 t
  funext a; apply Fin.ext
  match a with
  | ⟨0, _⟩ => show win0_6.index t (0 : Fin 3) * 1 + 1 * u.val = t.val / 2; have := u.isLt; omega
  | ⟨1, _⟩ => show win0_6.index t (1 : Fin 3) * 512 + 1 * p.val = 512 * (t.val % 2) + p.val; omega
  | ⟨2, _⟩ => show win0_6.index t (2 : Fin 3) * 1024 + 1 * q.val = q.val; omega

/-- The reshape `[4,12,1024,64] → [48,1024,64]` read at merged index `t / 2`: row-major positions agree because
    `(t / 2 / 12) · 12 + t / 2 % 12 = t / 2`. -/
theorem cast48_apply {α : Type} (X : S4x12x1024x64.Idx → α) (t : Fin cfg0.N) (r : Fin 1024) (d : Fin 64) :
    shapeCast S48x1024x64 X shapeCasts_S4x12x1024x64_S48x1024x64 (ix3 (bhOf t) r d) = X (ix4 (batchOf t) (headOf t) r d) := by
  refine shapeCast_apply X _ _ _ ?_
  rw [Shape.rowMajor_val_four, Shape.rowMajor_val_three]
  show (((t.val / 2 / 12) * 12 + t.val / 2 % 12) * 1024 + r.val) * 64 + d.val = ((t.val / 2) * 1024 + r.val) * 64 + d.val
  have h : (t.val / 2 / 12) * 12 + t.val / 2 % 12 = t.val / 2 := by omega
  rw [h]

/-- The same for `[4,12,1024,1024] → [48,1024,1024]`. -/
theorem cast48sq_apply {α : Type} (X : S4x12x1024x1024.Idx → α) (t : Fin cfg0.N) (r : Fin 1024) (q : Fin 1024) :
    shapeCast S48x1024x1024 X shapeCasts_S4x12x1024x1024_S48x1024x1024 (ix3 (bhOf t) r q) = X (ix4 (batchOf t) (headOf t) r q) := by
  refine shapeCast_apply X _ _ _ ?_
  rw [Shape.rowMajor_val_four, Shape.rowMajor_val_three]
  show (((t.val / 2 / 12) * 12 + t.val / 2 % 12) * 1024 + r.val) * 1024 + q.val = ((t.val / 2) * 1024 + r.val) * 1024 + q.val
  have h : (t.val / 2 / 12) * 12 + t.val / 2 % 12 = t.val / 2 := by omega
  rw [h]

/-! ## The input blocks by coordinates -/

/-- The query block at point `t`: rows `512 · (t % 2) + p` of batch and head `t / 2`. -/
theorem blk_q (c : Dev nD) (t : Fin cfg0.N) (u : Fin 1) (p : Fin 512) (d : Fin 64) :
    (iblk m c 0 t : S1x512x64.Idx → EReal) (ix3 u p d)
      = m ((c : Thread nD τ).loc main_arg0) (ix4 (batchOf t) (headOf t) (rowOf t p) d) := by
  show V m c main_v0 (((cfg0.win 0).blk t).view.emb (ix3 u p d)) = _
  rw [emb_q, V_v0, cast48_apply]

/-- The key block at point `t`: all 1024 rows of batch and head `t / 2`. -/
theorem blk_k (c : Dev nD) (t : Fin cfg0.N) (u : Fin 1) (q : Fin 1024) (d : Fin 64) :
    (iblk m c 1 t : S1x1024x64.Idx → EReal) (ix3 u q d)
      = m ((c : Thread nD τ).loc main_arg1) (ix4 (batchOf t) (headOf t) q d) := by
  show V m c main_v1 (((cfg0.win 1).blk t).view.emb (ix3 u q d)) = _
  rw [emb_k, V_v1, cast48_apply]

/-- The value block at point `t`: all 1024 rows of batch and head `t / 2`. -/
theorem blk_v (c : Dev nD) (t : Fin cfg0.N) (u : Fin 1) (q : Fin 1024) (d : Fin 64) :
    (iblk m c 2 t : S1x1024x64.Idx → EReal) (ix3 u q d)
      = m ((c : Thread nD τ).loc main_arg2) (ix4 (batchOf t) (headOf t) q d) := by
  show V m c main_v2 (((cfg0.win 2).blk t).view.emb (ix3 u q d)) = _
  rw [emb_v, V_v2, cast48_apply]

/-- The mask block at point `t`, each one-bit entry zero-extended to a 32-bit word. -/
theorem blk_mask (c : Dev nD) (t : Fin cfg0.N) (u : Fin 1) (p : Fin 512) (q : Fin 1024) :
    (iblk m c 3 t : S1x512x1024.Idx → BitVec 32) (ix3 u p q)
      = (m ((c : Thread nD τ).loc main_arg3) (ix4 (batchOf t) (headOf t) (rowOf t p) q)).setWidth 32 := by
  show V m c main_v5 (((cfg0.win 3).blk t).view.emb (ix3 u p q)) = _
  rw [emb_mask, V_v5, extui_apply, cast48sq_apply]

/-- The block of the fifth argument at point `t`. -/
theorem blk_help (c : Dev nD) (t : Fin cfg0.N) (u : Fin 1) (p : Fin 512) (q : Fin 1024) :
    (iblk m c 4 t : S1x512x1024.Idx → EReal) (ix3 u p q)
      = m ((c : Thread nD τ).loc main_arg4) (ix4 (batchOf t) (headOf t) (rowOf t p) q) := by
  show V m c main_v4 (((cfg0.win 4).blk t).view.emb (ix3 u p q)) = _
  rw [emb_help, V_v4, cast48sq_apply]

/-! ## The output blocks cover the output arrays

Index `i` of a `[48,1024,*]` output array lies in the block of grid point `2 · (i 0) + (i 1) / 512`, and every point
writes its block back. -/

/-- An index is in point `t`'s block of output window 5 iff each coordinate is in the block's range on its axis. -/
theorem mem_blk5 (t : Fin cfg0.N) (i : S48x1024x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v6_0).slice (win0_5.rect t)).set ↔ _
  rw [View.set_slice_whole, Rect.mem_set_unit]
  exact Iff.rfl

/-- The same for output window 6. -/
theorem mem_blk6 (t : Fin cfg0.N) (i : S48x1024x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v6_1).slice (win0_6.rect t)).set ↔ _
  rw [View.set_slice_whole, Rect.mem_set_unit]
  exact Iff.rfl

/-- The grid point whose blocks hold row `r` of merged batch-head index `b`. -/
def pointOf (b : Fin 48) (r : Fin 1024) : Fin cfg0.N :=
  ⟨2 * b.val + r.val / 512, lt_of_lt_of_eq (by have := b.isLt; have := r.isLt; omega : 2 * b.val + r.val / 512 < 96) N_0.symm⟩

theorem pointOf_val (b : Fin 48) (r : Fin 1024) : (pointOf b r).val = 2 * b.val + r.val / 512 := rfl

/-- Every index of the `[48,1024,64]` output array is in the block some point writes back. -/
theorem cover_ctx : ∀ i : S48x1024x64.Idx, ∃ t : Fin cfg0.N, (cfg0.win 5).flush t = true ∧ i ∈ ((cfg0.win 5).blk t).view.set := by
  intro i
  have h0 : (i 0).val < 48 := (i 0).isLt
  have h1 : (i 1).val < 1024 := (i 1).isLt
  have h2 : (i 2).val < 64 := (i 2).isLt
  have ht : (pointOf (i 0) (i 1)).val = 2 * (i 0).val + (i 1).val / 512 := rfl
  obtain ⟨e0, e1, e2⟩ := idx5 (pointOf (i 0) (i 1))
  refine ⟨pointOf (i 0) (i 1), flush0_5 _, ?_⟩
  rw [mem_blk5]
  intro a
  match a with
  | ⟨0, _⟩ =>
    show win0_5.index (pointOf (i 0) (i 1)) (0 : Fin 3) * 1 ≤ (i 0).val
      ∧ (i 0).val < win0_5.index (pointOf (i 0) (i 1)) (0 : Fin 3) * 1 + 1
    omega
  | ⟨1, _⟩ =>
    show win0_5.index (pointOf (i 0) (i 1)) (1 : Fin 3) * 512 ≤ (i 1).val
      ∧ (i 1).val < win0_5.index (pointOf (i 0) (i 1)) (1 : Fin 3) * 512 + 512
    omega
  | ⟨2, _⟩ =>
    show win0_5.index (pointOf (i 0) (i 1)) (2 : Fin 3) * 64 ≤ (i 2).val
      ∧ (i 2).val < win0_5.index (pointOf (i 0) (i 1)) (2 : Fin 3) * 64 + 64
    omega

/-- Every index of the `[48,1024,1024]` output array is in the block some point writes back. -/
theorem cover_attn : ∀ i : S48x1024x1024.Idx, ∃ t : Fin cfg0.N, (cfg0.win 6).flush t = true ∧ i ∈ ((cfg0.win 6).blk t).view.set := by
  intro i
  have h0 : (i 0).val < 48 := (i 0).isLt
  have h1 : (i 1).val < 1024 := (i 1).isLt
  have h2 : (i 2).val < 1024 := (i 2).isLt
  have ht : (pointOf (i 0) (i 1)).val = 2 * (i 0).val + (i 1).val / 512 := rfl
  obtain ⟨e0, e1, e2⟩ := idx6 (pointOf (i 0) (i 1))
  refine ⟨pointOf (i 0) (i 1), flush0_6 _, ?_⟩
  rw [mem_blk6]
  intro a
  match a with
  | ⟨0, _⟩ =>
    show win0_6.index (pointOf (i 0) (i 1)) (0 : Fin 3) * 1 ≤ (i 0).val
      ∧ (i 0).val < win0_6.index (pointOf (i 0) (i 1)) (0 : Fin 3) * 1 + 1
    omega
  | ⟨1, _⟩ =>
    show win0_6.index (pointOf (i 0) (i 1)) (1 : Fin 3) * 512 ≤ (i 1).val
      ∧ (i 1).val < win0_6.index (pointOf (i 0) (i 1)) (1 : Fin 3) * 512 + 512
    omega
  | ⟨2, _⟩ =>
    show win0_6.index (pointOf (i 0) (i 1)) (2 : Fin 3) * 1024 ≤ (i 2).val
      ∧ (i 2).val < win0_6.index (pointOf (i 0) (i 1)) (2 : Fin 3) * 1024 + 1024
    omega

/-! ## The run, with its results named

After the region the two result arrays are reshaped back from `[48,1024,*]` to `[4,12,1024,*]`; the argument arrays are
never written. -/

theorem tail_v7 (c : Dev nD) :
    Pipeline.afterTail₀ cfgs (dats m) 0 (V0 m) [hostOps1] c main_v7
      = shapeCast S4x12x1024x64 ((dats m 0 c).arrAt 5 cfg0.N) shapeCasts_S48x1024x64_S4x12x1024x64 := by
  unfold Pipeline.afterTail₀
  show StableHlo.after hostOps1 _ (Proc.devRef .tc main_v7) = _
  after_results
  exact congrArg (fun A => shapeCast S4x12x1024x64 A shapeCasts_S48x1024x64_S4x12x1024x64)
    (Pipeline.withArrays_arr spec0 launch0.win.arr_inj c _ _ 5)

theorem tail_v8 (c : Dev nD) :
    Pipeline.afterTail₀ cfgs (dats m) 0 (V0 m) [hostOps1] c main_v8
      = shapeCast S4x12x1024x1024 ((dats m 0 c).arrAt 6 cfg0.N) shapeCasts_S48x1024x1024_S4x12x1024x1024 := by
  unfold Pipeline.afterTail₀
  show StableHlo.after hostOps1 _ (Proc.devRef .tc main_v8) = _
  after_results
  exact congrArg (fun A => shapeCast S4x12x1024x1024 A shapeCasts_S48x1024x1024_S4x12x1024x1024)
    (Pipeline.withArrays_arr spec0 launch0.win.arr_inj c _ _ 6)

/-- Every run ends with the two results at the reshapes of the region's two output arrays, and the five arguments
    as launched. -/
theorem run_arrays : θ_run defs (onTc (τ := τ) (main (F := Ideal))) ⟨m, fun _ => 0, ρ⟩ fun r => ∀ c : Dev nD,
      r.2.mem ((c.tc : Thread nD τ).loc main_v7) = shapeCast S4x12x1024x64 ((dats m 0 c).arrAt 5 cfg0.N) shapeCasts_S48x1024x64_S4x12x1024x64
    ∧ r.2.mem ((c.tc : Thread nD τ).loc main_v8) = shapeCast S4x12x1024x1024 ((dats m 0 c).arrAt 6 cfg0.N) shapeCasts_S48x1024x1024_S4x12x1024x1024
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c =>
    ⟨((h c).2 main_v7 (Pipeline.mem_restRefs_of main_v7 (by decide) (by decide))).trans (tail_v7 m c),
     ((h c).2 main_v8 (Pipeline.mem_restRefs_of main_v8 (by decide) (by decide))).trans (tail_v8 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelGeometry
end
-- ==== Proof.FiniteInputs.lean ====
import proofs.«175533_j44976897524605_2_alg».proof.Pre_finite_inputs
import Idealize.ShloMosaic.Lib.ReduceAll
import Idealize.ShloMosaic.PureOps.Ideal

/-!
# Finite float inputs are real-valued

The precondition states, for each float argument array, that every entry's absolute value is
strictly below +∞ (a conjunction of four "for all entries" reductions). Over the extended reals
this says exactly that every entry is the coercion of a real number: the absolute value
`max x (-x)` is +∞ at both infinities, and a real's absolute value is a real, hence below +∞.
-/

noncomputable section

namespace Cert.FiniteInputs

open Idealize.ShloMosaic
open Cert.Pre_finite_inputs

/-- The rank-0 shape has exactly one index. -/
instance : Subsingleton S_.Idx := ⟨fun a b => funext fun d => d.elim0⟩

/-- The bit pattern `0x7F800000` denotes +∞. -/
theorem ofBits_inf : Ideal.ofBits .f32 0x7F800000#32 = (⊤ : EReal) := by
  simp [Ideal.ofBits, Ideal.ieee]

/-- An extended real whose absolute value `max x (-x)` is strictly below +∞ is a real number:
    at `⊥` the absolute value is `max ⊥ ⊤ = ⊤`, at `⊤` it is `⊤`, and neither is below `⊤`. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One conjunct of the precondition: if the "and" over all entries of `|a| < +∞` is 1, every entry of
    `a` is a real number. -/
theorem entries_real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1) :
    ∀ i, ∃ r : ℝ, a i = (r : EReal) := by
  intro i
  have hi := Host.reduce_andi_all _ _ hr hu _ e i
  exact real_of_abs_lt_inf (a i) hi

/-- The precondition holds (its one result word is 1) only if every entry of each of the four float
    argument arrays is a real number. -/
theorem entries_real [Cert.Pre_finite_inputs.Facts]
    (a0 a1 a2 : FVec Ideal Cert.Pre_finite_inputs.S4x12x1024x64 .f32) (a3 : IVec Cert.Pre_finite_inputs.S4x12x1024x1024 1)
    (a4 : FVec Ideal Cert.Pre_finite_inputs.S4x12x1024x1024 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a4 i = (r : EReal)) := by
  have h0 := congrFun h (fun d => d.elim0)
  dsimp only [Cert.Pre_finite_inputs.fn, Cert.Pre_finite_inputs.fn_part1] at h0
  obtain ⟨h012, e4⟩ := IntOp.andi_eq_one.1 h0
  obtain ⟨h01, e2⟩ := IntOp.andi_eq_one.1 h012
  obtain ⟨e0, e1⟩ := IntOp.andi_eq_one.1 h01
  exact ⟨entries_real_of_all a0 _ _ _ _ e0, entries_real_of_all a1 _ _ _ _ e1,
    entries_real_of_all a2 _ _ _ _ e2, entries_real_of_all a4 _ _ _ _ e4⟩

end Cert.FiniteInputs

end
-- ==== Proof.AttentionValue.lean ====
/-
  The idealized kernel's two result arrays are the reference's two results.

  Per entry: the weights the body stores at a grid point are, entry by entry, the reference's attention weights at the array
  index the block element sits at (`weights_entry`, `attn_entry`), because both are the softmax of a row of blended scores
  and the two programs' blended scores agree on finite inputs (the factor 1/8 moved through the contraction against the
  division by √64, and the two spellings of the blend); the context entries are then the same sums over the keys
  (`ctx_entry`). Per array: every grid point writes back the block of ONE whole-array function — the reference's result
  reshaped to [48, 1024, ·] — and the blocks cover the array, so after the run the array is that function; the reshape back
  to [4, 12, 1024, ·] returns the reference's result itself. The inputs' finiteness comes from the precondition.
  (The step from "the stored block is the array function read through the block's placement" to "the write-back writes that
  block of the array function" is stated once for an arbitrary array function, `writeback_attn` / `writeback_ctx`, and
  only instantiated at the reference's results.)
-/
import proofs.«175533_j44976897524605_2_alg».proof.Proof.KernelAttention
import proofs.«175533_j44976897524605_2_alg».proof.Proof.RefAttention
import proofs.«175533_j44976897524605_2_alg».proof.Proof.EntryScore
import proofs.«175533_j44976897524605_2_alg».proof.Proof.GridGeometry
import proofs.«175533_j44976897524605_2_alg».proof.Proof.FiniteInputs
import proofs.«175533_j44976897524605_2_alg».proof.Defs

noncomputable section

namespace Cert.AttentionValue

open Cert.KernelIdeal Cert.KernelIdeal.Gen Idealize.ShloMosaic Idealize.ShloMosaic.TcCoe Idealize.SL.Sem
open Idealize.ShloMosaic.ValueIdx Cert.KernelAttention Cert.KernelGeometry
open Idealize.ShloMosaic.Pipeline (Dat)

/-! ## One block against the reference, entry by entry -/

section Entries

variable (Q K Vv : S4x12x1024x64.Idx → EReal) (M : S4x12x1024x1024.Idx → BitVec 1) (H : S4x12x1024x1024.Idx → EReal)
  (hQ : ∀ i, ∃ r : ℝ, Q i = (r : EReal)) (hK : ∀ i, ∃ r : ℝ, K i = (r : EReal)) (hH : ∀ i, ∃ r : ℝ, H i = (r : EReal))
  (b : Fin 4) (hd : Fin 12) (row : Fin 512 → Fin 1024)
  (x0 : Vec Ideal S1x512x64 .f32) (x1 x2 : Vec Ideal S1x1024x64 .f32) (x3 : Vec Ideal S1x512x1024 .i32) (x4 : Vec Ideal S1x512x1024 .f32)
  (h0 : ∀ (p : Fin 512) (d : Fin 64), x0 (ix3 (0 : Fin 1) p d) = Q (ix4 b hd (row p) d))
  (h1 : ∀ (q : Fin 1024) (d : Fin 64), x1 (ix3 (0 : Fin 1) q d) = K (ix4 b hd q d))
  (h2 : ∀ (q : Fin 1024) (d : Fin 64), x2 (ix3 (0 : Fin 1) q d) = Vv (ix4 b hd q d))
  (h3 : ∀ (p : Fin 512) (q : Fin 1024), x3 (ix3 (0 : Fin 1) p q) = (M (ix4 b hd (row p) q)).setWidth 32)
  (h4 : ∀ (p : Fin 512) (q : Fin 1024), x4 (ix3 (0 : Fin 1) p q) = H (ix4 b hd (row p) q))

include hQ hK hH h0 h1 h3 h4 in
/-- The body's weight at `(p, q)` is the reference's attention weight at `(b, hd, row p, q)`. -/
theorem weights_entry (p : Fin 512) (q : Fin 1024) :
    k0_pay3 (F := Ideal) x0 x1 x3 x4 (ix2 p q) = Cert.ReferenceIdeal.Read.val_main_v28 (F := Ideal) Q K M H (ix4 b hd (row p) q) := by
  rw [pay3_eq, weightPlane_apply, Cert.RefAttention.attn_apply]
  refine congrArg (fun s => Cert.Attention.rowWeight s q) (funext fun k => ?_)
  rw [scorePlane_apply, Cert.RefAttention.refScore_eq]
  simp only [h0, h1, h3, h4]
  exact Cert.EntryScore.entry_join _ _ (fun d => hQ _) (fun d => hK _) _ _ (hH _)

include hQ hK hH h0 h1 h3 h4 in
/-- The stored weights, entry by entry. -/
theorem attn_entry (u : Fin 1) (p : Fin 512) (q : Fin 1024) :
    k0_pay1 (F := Ideal) (k0_pay3 (F := Ideal) x0 x1 x3 x4) (ix3 u p q)
      = Cert.ReferenceIdeal.Read.val_main_v28 (F := Ideal) Q K M H (ix4 b hd (row p) q) := by
  rw [pay1_apply]
  exact weights_entry Q K M H hQ hK hH b hd row x0 x1 x3 x4 h0 h1 h3 h4 p q

include hQ hK hH h0 h1 h2 h3 h4 in
/-- The stored context, entry by entry: the same sum over the keys of weight times value. -/
theorem ctx_entry (u : Fin 1) (p : Fin 512) (d : Fin 64) :
    k0_pay2 (F := Ideal) (k0_pay3 (F := Ideal) x0 x1 x3 x4) x2 (ix3 u p d)
      = Cert.ReferenceIdeal.Read.val_main_v29 (F := Ideal) Q K Vv M H (ix4 b hd (row p) d) := by
  rw [pay2_apply, Cert.RefAttention.ctx_apply]
  refine Finset.sum_congr rfl fun k _ => ?_
  rw [h2, weights_entry Q K M H hQ hK hH b hd row x0 x1 x3 x4 h0 h1 h3 h4 p k]

include hQ hK hH h0 h1 h3 h4 in
/-- A whole block of stored weights: if block element `(u, p, q)` sits at array index `(bh, row p, q)` and the array function `G`
    reads the reference's weights there, the block is `G` read through that placement. -/
theorem attn_block (G : S48x1024x1024.Idx → EReal) (place : S1x512x1024.Idx → S48x1024x1024.Idx) (bh : Fin 48)
    (hplace : ∀ (u : Fin 1) (p : Fin 512) (q : Fin 1024), place (ix3 u p q) = ix3 bh (row p) q)
    (hG : ∀ r q : Fin 1024, G (ix3 bh r q) = Cert.ReferenceIdeal.Read.val_main_v28 (F := Ideal) Q K M H (ix4 b hd r q))
    (y : S1x512x1024.Idx) :
    k0_pay1 (F := Ideal) (k0_pay3 (F := Ideal) x0 x1 x3 x4) y = G (place y) := by
  obtain ⟨u, p, q, rfl⟩ : ∃ (u : Fin 1) (p : Fin 512) (q : Fin 1024), y = ix3 u p q := ⟨y 0, y 1, y 2, eq_ix3 y⟩
  rw [hplace, hG]
  exact attn_entry Q K M H hQ hK hH b hd row x0 x1 x3 x4 h0 h1 h3 h4 u p q

include hQ hK hH h0 h1 h2 h3 h4 in
/-- A whole block of stored context, likewise. -/
theorem ctx_block (G : S48x1024x64.Idx → EReal) (place : S1x512x64.Idx → S48x1024x64.Idx) (bh : Fin 48)
    (hplace : ∀ (u : Fin 1) (p : Fin 512) (d : Fin 64), place (ix3 u p d) = ix3 bh (row p) d)
    (hG : ∀ (r : Fin 1024) (d : Fin 64), G (ix3 bh r d) = Cert.ReferenceIdeal.Read.val_main_v29 (F := Ideal) Q K Vv M H (ix4 b hd r d))
    (y : S1x512x64.Idx) :
    k0_pay2 (F := Ideal) (k0_pay3 (F := Ideal) x0 x1 x3 x4) x2 y = G (place y) := by
  obtain ⟨u, p, d, rfl⟩ : ∃ (u : Fin 1) (p : Fin 512) (d : Fin 64), y = ix3 u p d := ⟨y 0, y 1, y 2, eq_ix3 y⟩
  rw [hplace, hG]
  exact ctx_entry Q K Vv M H hQ hK hH b hd row x0 x1 x2 x3 x4 h0 h1 h2 h3 h4 u p d

end Entries

/-! ## Every grid point writes back its block of one whole-array function -/

variable (m : (ℓ : Loc nD τ sig) → Buf (Elt Ideal) ℓ) (ρ : Dev nD → PrngReg)

theorem zero_offsets : (![0, 0, 0] : Fin 3 → Nat) = fun _ => 0 := funext fun a => by fin_cases a <;> rfl

/-- The reference's attention weights as a function of THIS program's argument arrays on core `c`. -/
abbrev refAttn (c : Dev nD) : S4x12x1024x1024.Idx → EReal :=
  Cert.ReferenceIdeal.Read.val_main_v28 (F := Ideal) (m ((c : Thread nD τ).loc main_arg0)) (m ((c : Thread nD τ).loc main_arg1))
    (m ((c : Thread nD τ).loc main_arg3)) (m ((c : Thread nD τ).loc main_arg4))

/-- The reference's context likewise. -/
abbrev refCtx (c : Dev nD) : S4x12x1024x64.Idx → EReal :=
  Cert.ReferenceIdeal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Every entry of the four float argument arrays is a real number, on every core. -/
def FiniteArgs : Prop := ∀ c : Dev nD,
  (∀ i, ∃ r : ℝ, m ((c : Thread nD τ).loc main_arg0) i = (r : EReal)) ∧ (∀ i, ∃ r : ℝ, m ((c : Thread nD τ).loc main_arg1) i = (r : EReal))
  ∧ (∀ i, ∃ r : ℝ, m ((c : Thread nD τ).loc main_arg2) i = (r : EReal)) ∧ (∀ i, ∃ r : ℝ, m ((c : Thread nD τ).loc main_arg4) i = (r : EReal))

variable (hfin : FiniteArgs m)

/-- A block that is an array function read through the block's placement is what a write-back of that block of the array
    function writes (window 6; no arithmetic). -/
theorem writeback_attn (t : Fin cfg0.N) (G : S48x1024x1024.Idx → EReal) (X : S1x512x1024.Idx → EReal)
    (hX : X = fun z : S1x512x1024.Idx => G (((cfg0.win 6).blk t).view.emb z)) :
    (cfg0.win 6).cut (grid0.coords t) X = ((cfg0.win 6).blk t).view.read (Elt Ideal) G := by
  subst hX
  rfl

/-- The same for the context's window. -/
theorem writeback_ctx (t : Fin cfg0.N) (G : S48x1024x64.Idx → EReal) (X : S1x512x64.Idx → EReal)
    (hX : X = fun z : S1x512x64.Idx => G (((cfg0.win 5).blk t).view.emb z)) :
    (cfg0.win 5).cut (grid0.coords t) X = ((cfg0.win 5).blk t).view.read (Elt Ideal) G := by
  subst hX
  rfl

include hfin in
/-- The weights the body stores at point `t`, as one function of the block index: the reference's weights (reshaped to
    [48, 1024, 1024]) read through the block's placement in its array. -/
theorem stored_attn (c : Dev nD) (t : Fin cfg0.N) :
    k0_pay1 (F := Ideal) (k0_pay3 (F := Ideal) (iblk m c 0 t) (iblk m c 1 t) (iblk m c 3 t) (iblk m c 4 t))
      = fun z : S1x512x1024.Idx => shapeCast S48x1024x1024 (refAttn m c) shapeCasts_S4x12x1024x1024_S48x1024x1024
          (((cfg0.win 6).blk t).view.emb z) :=
  funext (attn_block (m ((c : Thread nD τ).loc main_arg0)) (m ((c : Thread nD τ).loc main_arg1)) (m ((c : Thread nD τ).loc main_arg3)) (m ((c : Thread nD τ).loc main_arg4)) (hfin c).1 (hfin c).2.1 (hfin c).2.2.2
    (batchOf t) (headOf t) (rowOf t) (iblk m c 0 t) (iblk m c 1 t) (iblk m c 3 t) (iblk m c 4 t)
    (fun p d => blk_q m c t 0 p d) (fun q d => blk_k m c t 0 q d) (fun p q => blk_mask m c t 0 p q) (fun p q => blk_help m c t 0 p q)
    (shapeCast S48x1024x1024 (refAttn m c) shapeCasts_S4x12x1024x1024_S48x1024x1024)
    (fun z => ((cfg0.win 6).blk t).view.emb z) (bhOf t) (emb_attn t) (fun r q => cast48sq_apply (refAttn m c) t r q))

include hfin in
/-- The context the body stores at point `t`, as one function of the block index: the reference's context (reshaped to
    [48, 1024, 64]) read through the block's placement in its array. -/
theorem stored_ctx (c : Dev nD) (t : Fin cfg0.N) :
    k0_pay2 (F := Ideal) (k0_pay3 (F := Ideal) (iblk m c 0 t) (iblk m c 1 t) (iblk m c 3 t) (iblk m c 4 t)) (iblk m c 2 t)
      = fun z : S1x512x64.Idx => shapeCast S48x1024x64 (refCtx m c) shapeCasts_S4x12x1024x64_S48x1024x64
          (((cfg0.win 5).blk t).view.emb z) :=
  funext (ctx_block (m ((c : Thread nD τ).loc main_arg0)) (m ((c : Thread nD τ).loc main_arg1)) (m ((c : Thread nD τ).loc main_arg2)) (m ((c : Thread nD τ).loc main_arg3)) (m ((c : Thread nD τ).loc main_arg4)) (hfin c).1 (hfin c).2.1 (hfin c).2.2.2
    (batchOf t) (headOf t) (rowOf t) (iblk m c 0 t) (iblk m c 1 t) (iblk m c 2 t) (iblk m c 3 t) (iblk m c 4 t)
    (fun p d => blk_q m c t 0 p d) (fun q d => blk_k m c t 0 q d) (fun q d => blk_v m c t 0 q d)
    (fun p q => blk_mask m c t 0 p q) (fun p q => blk_help m c t 0 p q)
    (shapeCast S48x1024x64 (refCtx m c) shapeCasts_S4x12x1024x64_S48x1024x64)
    (fun z => ((cfg0.win 5).blk t).view.emb z) (bhOf t) (emb_ctx t) (fun r d => cast48_apply (refCtx m c) t r d))

include hfin in
/-- What point `t` writes back to the weights' array is block `t` of the reference's weights reshaped to [48, 1024, 1024]. -/
theorem flushed_attn (c : Dev nD) (t : Fin cfg0.N) :
    (dats m 0 c).flushed 6 t = ((cfg0.win 6).blk t).view.read (Elt Ideal)
      (shapeCast S48x1024x1024 (refAttn m c) shapeCasts_S4x12x1024x1024_S48x1024x1024) := by
  show (cfg0.win 6).cut (grid0.coords t) ((dats m 0 c).after 6 t) = _
  rw [after0_6]
  unfold out0_6
  rw [View.canon_unit_zero zero_offsets]
  simp only [View.ld_unit_zero (S := S1x512x64) zero_offsets, View.ld_unit_zero (S := S1x1024x64) zero_offsets,
    View.ld_unit_zero (S := S1x512x1024) zero_offsets]
  exact writeback_attn t _ _ (stored_attn m hfin c t)

include hfin in
/-- What point `t` writes back to the context's array is block `t` of the reference's context reshaped to [48, 1024, 64]. -/
theorem flushed_ctx (c : Dev nD) (t : Fin cfg0.N) :
    (dats m 0 c).flushed 5 t = ((cfg0.win 5).blk t).view.read (Elt Ideal)
      (shapeCast S48x1024x64 (refCtx m c) shapeCasts_S4x12x1024x64_S48x1024x64) := by
  show (cfg0.win 5).cut (grid0.coords t) ((dats m 0 c).after 5 t) = _
  rw [after0_5]
  unfold out0_5
  rw [View.canon_unit_zero zero_offsets]
  simp only [View.ld_unit_zero (S := S1x512x64) zero_offsets, View.ld_unit_zero (S := S1x1024x64) zero_offsets,
    View.ld_unit_zero (S := S1x512x1024) zero_offsets]
  exact writeback_ctx t _ _ (stored_ctx m hfin c t)

/-! ## The arrays after the run, and the run -/

include hfin in
/-- The blocks cover the weights' array, so after the run it is the reference's weights, reshaped. -/
theorem final_attn (c : Dev nD) :
    (dats m 0 c).arrAt 6 cfg0.N = shapeCast S48x1024x1024 (refAttn m c) shapeCasts_S4x12x1024x1024_S48x1024x1024 :=
  (dats m 0 c).arrAt_eq_of_cover 6 _ (fun t _ => flushed_attn m hfin c t) cover_attn

include hfin in
/-- And the context's array the reference's context, reshaped. -/
theorem final_ctx (c : Dev nD) :
    (dats m 0 c).arrAt 5 cfg0.N = shapeCast S48x1024x64 (refCtx m c) shapeCasts_S4x12x1024x64_S48x1024x64 :=
  (dats m 0 c).arrAt_eq_of_cover 5 _ (fun t _ => flushed_ctx m hfin c t) cover_ctx

include hfin in
/-- The idealized kernel's run: both results are the reference's, as functions of the argument arrays (the reshape back to
    [4, 12, 1024, ·] undoes the reshape the blocks were read through), and the arguments end unchanged. -/
theorem kernel_run : θ_run defs (onTc (τ := τ) (main (F := Ideal))) ⟨m, fun _ => 0, ρ⟩ fun r => ∀ c : Dev nD,
      r.2.mem ((c.tc : Thread nD τ).loc main_v7) = refCtx m c
    ∧ r.2.mem ((c.tc : Thread nD τ).loc main_v8) = refAttn m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c =>
    ⟨(h c).1.trans (by rw [final_ctx m hfin c]; exact shapeCast_shapeCast _ _ _),
     (h c).2.1.trans (by rw [final_attn m hfin c]; exact shapeCast_shapeCast _ _ _),
     (h c).2.2⟩) (run_arrays m ρ)

end Cert.AttentionValue

end
-- ==== Proof.lean ====
/-
  The certificate of the attention kernel against its reference: `Cert.Claim`.

  Both programs compute, for every (batch, head) pair, the softmax over the keys of a blended score and the weights' product
  with the values. The kernel scales the queries by 1/8 before contracting with the keys and blends
  `s + ½·valid·(help − s)`; the reference divides the contraction by √64 and blends `help·(valid·½) + s·(valid·½ + (1 − valid))`.
  On finite inputs — the precondition — these are one real number, entry by entry; everything after the score is the same
  function of the score row. The kernel works on [48, 1024, ·] reshapes, block by block over a (48, 2) grid; its blocks are the
  blocks of the reference's results and they cover the arrays (Proof/AttentionValue.lean). The three frames are the generated
  frame runs (the reference's is its generated run with the results dropped); the idealization rewrote no operation.
-/
import proofs.«175533_j44976897524605_2_alg».proof.Defs
import proofs.«175533_j44976897524605_2_alg».proof.Proof.Gen.Kernel
import proofs.«175533_j44976897524605_2_alg».proof.Proof.Gen.Kernel.Skeleton
import proofs.«175533_j44976897524605_2_alg».proof.Proof.Gen.Kernel.Launch
import proofs.«175533_j44976897524605_2_alg».proof.Proof.Gen.Kernel.Points
import proofs.«175533_j44976897524605_2_alg».proof.Proof.Gen.Kernel.Frame
import proofs.«175533_j44976897524605_2_alg».proof.Proof.Gen.KernelIdeal
import proofs.«175533_j44976897524605_2_alg».proof.Proof.Gen.KernelIdeal.Skeleton
import proofs.«175533_j44976897524605_2_alg».proof.Proof.Gen.KernelIdeal.Launch
import proofs.«175533_j44976897524605_2_alg».proof.Proof.Gen.KernelIdeal.Points
import proofs.«175533_j44976897524605_2_alg».proof.Proof.Gen.KernelIdeal.Frame
import proofs.«175533_j44976897524605_2_alg».proof.Proof.Gen.ReferenceIdeal
import proofs.«175533_j44976897524605_2_alg».proof.Proof.Gen.Pre_finite_inputs
import proofs.«175533_j44976897524605_2_alg».proof.Proof.Gen.ReferenceIdeal.Run
import proofs.«175533_j44976897524605_2_alg».proof.Proof.Gen.ReferenceIdeal.Read
import proofs.«175533_j44976897524605_2_alg».proof.Proof.AttentionValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the results forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The precondition makes every entry of the four float argument arrays a real number. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.AttentionValue.FiniteArgs m :=
  fun c => Cert.FiniteInputs.entries_real _ _ _ _ _ (h c)

/-- Both runs end with the reference's two results as one function of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.AttentionValue.refCtx m c, fun c => Cert.AttentionValue.refAttn m c,
    Cert.AttentionValue.kernel_run m ρ (finite_of_pre m hpre), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v29_eq, (hagree c).1, (hagree c).2.1, (hagree c).2.2.1, (hagree c).2.2.2.1,
      (hagree c).2.2.2.2]
  · rw [(h c).2.1, Cert.ReferenceIdeal.Read.val_main_v28_eq, (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
